-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel

variable [Facts]

def fn {F : FTy → Type} [FloatOps F] (main_arg0 : FVec F S100000x16 .f32) (main_arg1 : FVec F S100000x16 .f32) (main_arg2 : IVec S2x3200000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S100000x16 : Shape := ⟨2, ![100000, 16]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S1x1 : Shape := ⟨2, ![1, 1]⟩
abbrev S10000x16 : Shape := ⟨2, ![10000, 16]⟩
abbrev S10000 : Shape := ⟨1, ![10000]⟩
abbrev S10000x1 : Shape := ⟨2, ![10000, 1]⟩
abbrev S1 : Shape := ⟨1, ![1]⟩

abbrev nBuf : Space → Nat
  | .hbm => 46
  | .vmem => 6
  | .smem => 0
  | _ => 0

abbrev bufTy : (tb : Table) → Fin (tcTables nBuf tb) → BufTy
  | .hbm, ⟨0, _⟩ => ⟨S100000x16, .f32⟩
  | .hbm, ⟨1, _⟩ => ⟨S100000x16, .f32⟩
  | .hbm, ⟨2, _⟩ => ⟨S2x3200000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S100000x16, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x16, .f32⟩
  | .hbm, ⟨17, _⟩ => ⟨S_, .f32⟩
  | .hbm, ⟨18, _⟩ => ⟨S100000x16, .f32⟩
  | .hbm, ⟨19, _⟩ => ⟨S3200000x1, .i32⟩
  | .hbm, ⟨20, _⟩ => ⟨S100000x16, .f32⟩
  | .hbm, ⟨21, _⟩ => ⟨S_, .f32⟩
  | .hbm, ⟨22, _⟩ => ⟨S3200000, .f32⟩
  | .hbm, ⟨23, _⟩ => ⟨S_, .f32⟩
  | .hbm, ⟨24, _⟩ => ⟨S100000, .f32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x16, .f32⟩
  | .hbm, ⟨32, _⟩ => ⟨S100000x16, .f32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .i1⟩
  | .hbm, ⟨37, _⟩ => ⟨S_, .f32⟩
  | .hbm, ⟨38, _⟩ => ⟨S_, .f32⟩
  | .hbm, ⟨39, _⟩ => ⟨S100000x16, .i1⟩
  | .hbm, ⟨40, _⟩ => ⟨S100000x16, .f32⟩
  | .hbm, ⟨41, _⟩ => ⟨S100000x16, .f32⟩
  | .hbm, ⟨42, _⟩ => ⟨S1x1, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S1x1, .f32⟩
  | .local _ .vmem, ⟨5, _⟩ => ⟨S1x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v18 : BitVec 1 := Scalar.cmpi .eq arg0 c9_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S100000x1 : S_.BroadcastsInDim S100000x1 (![] : Fin 0 → Fin S100000x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  reduces_S10000x16_S10000 : S10000x16.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S_ : S1x1.ShapeCasts S_
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S100000x16.size a
  hwx0_1 : ∀ i : grid0.Coords, EltTy.bits .f32 = 32 ∨ (Rect.block (s := S100000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_v27) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100000x16 : Shape := ⟨2, ![100000, 16]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S100000x16, .f32⟩
  | .hbm, ⟨2, _⟩ => ⟨S2x3200000, .i32⟩
  | .hbm, ⟨3, _⟩ => ⟨S1x3200000, .i32⟩
  | .hbm, ⟨4, _⟩ => ⟨S3200000, .i32⟩
  | .hbm, ⟨5, _⟩ => ⟨S1x3200000, .i32⟩
  | .hbm, ⟨6, _⟩ => ⟨S3200000, .i32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x16, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x16, .f32⟩
  | .hbm, ⟨25, _⟩ => ⟨S3200000x16, .f32⟩
  | .hbm, ⟨26, _⟩ => ⟨S_, .f32⟩
  | .hbm, ⟨27, _⟩ => ⟨S100000x16, .f32⟩
  | .hbm, ⟨28, _⟩ => ⟨S3200000x1, .i32⟩
  | .hbm, ⟨29, _⟩ => ⟨S100000x16, .f32⟩
  | .hbm, ⟨30, _⟩ => ⟨S_, .f32⟩
  | .hbm, ⟨31, _⟩ => ⟨S3200000, .f32⟩
  | .hbm, ⟨32, _⟩ => ⟨S_, .f32⟩
  | .hbm, ⟨33, _⟩ => ⟨S100000, .f32⟩
  | .hbm, ⟨34, _⟩ => ⟨S3200000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x16, .f32⟩
  | .hbm, ⟨41, _⟩ => ⟨S100000x16, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x16, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x16, .f32⟩
  | .hbm, ⟨60, _⟩ => ⟨S3200000x16, .f32⟩
  | .hbm, ⟨61, _⟩ => ⟨S_, .f32⟩
  | .hbm, ⟨62, _⟩ => ⟨S100000x16, .f32⟩
  | .hbm, ⟨63, _⟩ => ⟨S3200000x1, .i32⟩
  | .hbm, ⟨64, _⟩ => ⟨S100000x16, .f32⟩
  | .hbm, ⟨65, _⟩ => ⟨S_, .f32⟩
  | .hbm, ⟨66, _⟩ => ⟨S3200000, .f32⟩
  | .hbm, ⟨67, _⟩ => ⟨S_, .f32⟩
  | .hbm, ⟨68, _⟩ => ⟨S100000, .f32⟩
  | .hbm, ⟨69, _⟩ => ⟨S3200000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x16, .f32⟩
  | .hbm, ⟨76, _⟩ => ⟨S100000x16, .f32⟩
  | .hbm, ⟨77, _⟩ => ⟨S100000x16, .f32⟩
  | .hbm, ⟨78, _⟩ => ⟨S100000x16, .f32⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_8 : Ref sig .tc := ⟨.hbm, 51, rfl⟩
abbrev main_v38 : Ref sig .tc := ⟨.hbm, 52, rfl⟩
abbrev main_v39 : Ref sig .tc := ⟨.hbm, 53, rfl⟩
abbrev main_c_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  reducesTo_S100000x16_S100000_d1 : S100000x16.ReducesTo [1] S100000
  h_S_ : 0 < S_.numel
  reducesTo_S100000_S_d0 : S100000.ReducesTo [0] S_
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.Finite.lean ====
/-
  The precondition read back: "every float input holds finite numbers" says that every entry of the two float arrays is a
  real number. The predicate is the conjunction of two `all`-reductions of the entrywise test `|x| < +∞`; a conjunction that
  is true has both parts true, an `all` that is true is true at every entry, and an extended real whose absolute value is
  below `+∞` is real.
-/
import proofs.«162504_j69655779607181_2_alg».proof.Pre_finite_inputs
import proofs.«162504_j69655779607181_2_alg».proof.Proof.LibFiniteEReal
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs

instance : Subsingleton Cert.Pre_finite_inputs.S_.Idx := ⟨fun a b => funext fun d => d.elim0⟩

/-- Under the precondition every entry of both float arrays is a real number. -/
theorem real_of_pre [Cert.Pre_finite_inputs.Facts] (P I : FVec Ideal S100000x16 .f32) (E : IVec S2x3200000 32)
    (h : Cert.Pre_finite_inputs.fn (F := Ideal) P I E = fun _ => 1#1) :
    (∀ j, ∃ r : ℝ, P j = (r : EReal)) ∧ (∀ j, ∃ r : ℝ, I j = (r : EReal)) := by
  have h0 := congrFun h ValueIdx.ix0
  dsimp only [Cert.Pre_finite_inputs.fn] at h0
  have h1 := IntOp.andi_eq_one.mp h0
  refine ⟨fun j => ?_, fun j => ?_⟩
  · exact Cert.Lib.FiniteEReal.real_of_abs_lt (P j) (Host.reduce_andi_all _ _ _ _ _ h1.1 j)
  · exact Cert.Lib.FiniteEReal.real_of_abs_lt (I j) (Host.reduce_andi_all _ _ _ _ _ h1.2 j)

end Cert.Finite

end
-- ==== Proof.KernelPayload.lean ====
/-
  The kernel body's arithmetic at the extended reals.

  At one grid point the body holds two blocks `a, b` of ten thousand rows by sixteen features and the running total `acc`
  (one number). It forms `(a - b)²` entry by entry, sums each row over its sixteen features, sums the ten thousand row
  sums, and adds the result to the running total. At the first point the running total is first set to zero.
-/
import proofs.«162504_j69655779607181_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The sum over a block's rows and features of the squared difference of the two blocks. -/
def tileSum (a b : Vec Ideal S10000x16 .f32) : EReal :=
  ∑ r : Fin 10000, ∑ d : Fin 16, (a (ix2 r d) - b (ix2 r d)) * (a (ix2 r d) - b (ix2 r d))

/-- The value the first point stores into the running total before anything else: zero. -/
theorem pay1_apply (j : S1x1.Idx) : k0_pay1 (F := Ideal) j = 0 := by
  unfold k0_pay1
  simp only [shapeCast_self]
  exact Ideal.ofBits_zero_f32

/-- A row of the block with feature `d` inserted. -/
theorem lift_row (h : S10000x16.Reduces [1] S10000) (r : Fin 10000) (d : Fin 16) :
    h.lift (ix1 r) d = ix2 r d := by
  funext a; refine Fin.ext ?_
  match a with
  | ⟨0, _⟩ => rfl
  | ⟨1, _⟩ => rfl

/-- The column of row sums with row `r` inserted. -/
theorem lift_col (h : S10000x1.Reduces [0] S1) (j : S1.Idx) (r : Fin 10000) :
    h.lift j r = ix2 r (0 : Fin 1) := by
  funext a; refine Fin.ext ?_
  match a with
  | ⟨0, _⟩ => rfl
  | ⟨1, _⟩ =>
    show (h.lift j r 1).val = 0
    have h2 := (h.lift j r 1).isLt
    have h1 : S10000x1.size 1 = 1 := rfl
    omega

/-- The squared difference of two blocks at an entry. -/
theorem sq_apply (a b : FVec Ideal S10000x16 .f32) (i k : S10000x16.Idx) (h : i = k) :
    mulf (subf a b) (subf a b) i = (a k - b k) * (a k - b k) := by
  subst h; rfl

/-- THE BODY'S STORE INTO THE RUNNING TOTAL: the total before plus the tile's sum. -/
theorem pay2_apply (a b : Vec Ideal S10000x16 .f32) (acc : Vec Ideal S1x1 .f32) (j : S1x1.Idx) :
    k0_pay2 (F := Ideal) a b acc j = acc j + tileSum a b := by
  unfold k0_pay2
  simp only [shapeCast_self]
  show acc j + _ = _
  refine congrArg (acc j + ·) ?_
  refine (shapeCast_apply _ shapeCasts_S1_S1x1 j (ix1 (0 : Fin 1)) (by
    rw [Shape.rowMajor_val_one, Shape.rowMajor_val_two]
    have h0 := (j 0).isLt; have h1 := (j 1).isLt
    have e0 : S1x1.size 0 = 1 := rfl
    have e1 : S1x1.size 1 = 1 := rfl
    show (0 : Nat) = (j 0).val * 1 + (j 1).val
    omega)).trans ?_
  refine (Ideal.multiReduction_add_single _ _ reduces_S10000x1_S1 _ _ _).trans ?_
  unfold tileSum
  refine Finset.sum_congr rfl fun (r : Fin 10000) _ => ?_
  refine (congrArg (shapeCast S10000x1 _ shapeCasts_S10000_S10000x1) (lift_col reduces_S10000x1_S1 (ix1 (0 : Fin 1)) r)).trans ?_
  refine (shapeCast_apply _ shapeCasts_S10000_S10000x1 (ix2 r (0 : Fin 1)) (ix1 r) (by
    rw [Shape.rowMajor_val_one, Shape.rowMajor_val_two]
    show r.val = r.val * 1 + 0
    omega)).trans ?_
  refine (Ideal.multiReduction_add_single _ _ reduces_S10000x16_S10000 _ _ _).trans ?_
  refine Finset.sum_congr rfl fun (d : Fin 16) _ => ?_
  exact sq_apply a b _ _ (lift_row reduces_S10000x16_S10000 r d)

end Cert.KernelIdeal.Body

end
-- ==== Proof.KernelPieces.lean ====
/-
  What one run of the kernel body leaves behind, as values.

  The body keeps its running total in a one-entry scratch buffer. At the first grid point it stores zero there, reads it
  back, and stores "zero plus this tile's sum"; at every later point it stores "what the point before left plus this
  tile's sum"; at the last point it also copies the new total into the one-entry output block. So, whatever the point,
  the scratch ends at the body's one arithmetic term applied to the two input blocks and the total before (zero at the
  first point), and at the last point the output block ends at the same term.
-/
import proofs.«162504_j69655779607181_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point: the scratch ends at the total before plus the tile's sum. -/
theorem scratch_B (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S10000x16 .f32) (x1 : Vec F S10000x16 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  rw [View.canon_unit_zero hz]
  simp only [View.readAt_eq_ld, harg1.read_unread, harg2.read_unread, harg4.read_unread,
    View.ld_unit_zero (S := S10000x16) hz, View.ld_unit_zero (S := S1x1) hz]

/-- The first point: the scratch ends at zero (just stored and read back) plus the tile's sum. -/
theorem scratch_A (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S10000x16 .f32) (x1 : Vec F S10000x16 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, View.ld_unit_zero (S := S10000x16) hz]

/-- The last point: the scratch ends at the total before plus the tile's sum, -/
theorem scratch_C (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread,
    View.ld_unit_zero (S := S10000x16) hz, View.ld_unit_zero (S := S1x1) hz]

/-- and the output block at the same number, read back from the scratch. -/
theorem out_C (c : Dev nD) (i : grid0.Coords) (arg1 : Memref sig .tc .vmem S10000x16 .f32) (harg1 : arg1.IsWhole) (arg2 : Memref sig .tc .vmem S10000x16 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S10000x16 .f32) (x1 : Vec F S10000x16 .f32) (xs0 : Vec F S1x1 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz, View.readCov_unit_zero (S := S1x1) _ hz]
  simp only [View.readAt_eq_ld, harg1.read_unread, harg2.read_unread, harg4.read_unread,
    View.ld_unit_zero (S := S10000x16) hz, View.ld_unit_zero (S := S1x1) hz]

end Cert.KernelIdeal.Pieces

end
-- ==== Proof.LibScatterMeanLaw.lean ====
/-
  The linearity of a scatter-mean at one node, on the extended reals, for real inputs.

  Let `S` be a finite set (the edges whose row index is a node `n`), `k` its size, `p, i` two real numbers (two inputs at
  `n`), and `fp e, fi e` real numbers for each `e ∈ S` (the two inputs at the node edge `e` selects). The count is formed as
  `0 + Σ_S 1`, a sum over the updates as `0 + Σ_S …`, and a mean as the sum divided by `max count 1`. Then

    (if 0 < count then p - i else 0) - (0 + Σ_S (fp - fi)) / max count 1
      = (0 + Σ_S (p - fp)) / max count 1 - (0 + Σ_S (i - fi)) / max count 1        (`node_law`).

  For `k > 0` both sides are `(p - i) - (Σ fp - Σ fi) / k`, because `Σ_S p = k · p`; for `k = 0` every sum is empty and both
  sides are `0`. The entries must be real: on the extended reals `k · p / k = p` fails at an infinite `p`.
  With it: the coercion from the reals commutes with a finite sum (`coe_sum`), a sum of ones is the size (`sum_ones`),
  and `0 / 1 = 0` for the division of the ideal instance (`div_zero_one`).
-/
import Idealize.ShloMosaic.PureOps.Ideal
import Idealize.ShloMosaic.PureOps.Ideal.Laws
import Mathlib.Algebra.BigOperators.Fin
import Mathlib.Tactic

noncomputable section

open scoped BigOperators

namespace Cert.Lib.ScatterMeanLaw

open Idealize.ShloMosaic

/-- The coercion from the reals commutes with a finite sum. -/
theorem coe_sum {ι : Type*} (S : Finset ι) (f : ι → ℝ) :
    ((∑ e ∈ S, f e : ℝ) : EReal) = ∑ e ∈ S, (f e : EReal) := by
  classical
  induction S using Finset.induction_on with
  | empty => simp
  | insert a s ha ih => rw [Finset.sum_insert ha, Finset.sum_insert ha, EReal.coe_add, ih]

/-- A sum of ones over a finite set is its size. -/
theorem sum_ones {ι : Type*} (S : Finset ι) : ∑ _e ∈ S, (1 : EReal) = ((S.card : ℝ) : EReal) := by
  have h : ∑ _e ∈ S, (1 : EReal) = ((∑ _e ∈ S, (1 : ℝ) : ℝ) : EReal) := by rw [coe_sum]; rfl
  rw [h]; simp

/-- Zero divided by one is zero. -/
theorem div_zero_one : Ideal.div 0 1 = 0 := by
  unfold Ideal.div
  rw [if_neg one_ne_zero, zero_mul]

/-- THE LAW AT ONE NODE AND ONE FEATURE (see the header): the mean of `(p - fp)` minus the mean of `(i - fi)` over the
    node's edges is `(p - i)` minus the mean of `(fp - fi)`, with the empty node giving `0` on both sides. -/
theorem node_law {ι : Type*} (S : Finset ι) (p i : ℝ) (fp fi : ι → ℝ) :
    (if (0 : EReal) < 0 + ∑ _e ∈ S, (1 : EReal) then ((p : EReal) - (i : EReal)) else 0)
        - Ideal.div (0 + ∑ e ∈ S, ((fp e : EReal) - (fi e : EReal))) (max (0 + ∑ _e ∈ S, (1 : EReal)) 1)
      = Ideal.div (0 + ∑ e ∈ S, ((p : EReal) - (fp e : EReal))) (max (0 + ∑ _e ∈ S, (1 : EReal)) 1)
        - Ideal.div (0 + ∑ e ∈ S, ((i : EReal) - (fi e : EReal))) (max (0 + ∑ _e ∈ S, (1 : EReal)) 1) := by
  classical
  simp only [zero_add]
  rw [sum_ones]
  have e1 : ∑ e ∈ S, ((fp e : EReal) - (fi e : EReal)) = ((∑ e ∈ S, (fp e - fi e) : ℝ) : EReal) := by
    rw [coe_sum]; exact Finset.sum_congr rfl fun e _ => (EReal.coe_sub _ _).symm
  have e2 : ∑ e ∈ S, ((p : EReal) - (fp e : EReal)) = ((∑ e ∈ S, (p - fp e) : ℝ) : EReal) := by
    rw [coe_sum]; exact Finset.sum_congr rfl fun e _ => (EReal.coe_sub _ _).symm
  have e3 : ∑ e ∈ S, ((i : EReal) - (fi e : EReal)) = ((∑ e ∈ S, (i - fi e) : ℝ) : EReal) := by
    rw [coe_sum]; exact Finset.sum_congr rfl fun e _ => (EReal.coe_sub _ _).symm
  rw [e1, e2, e3]
  rcases Nat.eq_zero_or_pos S.card with h0 | hpos
  · have hS : S = ∅ := Finset.card_eq_zero.mp h0
    subst hS
    simp only [Finset.card_empty, Nat.cast_zero, EReal.coe_zero, lt_self_iff_false, if_false, Finset.sum_empty]
    rw [max_eq_right (zero_le_one' EReal), div_zero_one, sub_self_zero]
  · have hk : (1 : ℝ) ≤ (S.card : ℝ) := by exact_mod_cast hpos
    have hk0 : (S.card : ℝ) ≠ 0 := by positivity
    have hmax : max (((S.card : ℝ)) : EReal) 1 = ((S.card : ℝ) : EReal) :=
      max_eq_left (by exact_mod_cast hk)
    have hlt : (0 : EReal) < ((S.card : ℝ) : EReal) := by exact_mod_cast lt_of_lt_of_le one_pos hk
    rw [hmax, if_pos hlt, Ideal.div_coe hk0, Ideal.div_coe hk0, Ideal.div_coe hk0]
    rw [← EReal.coe_sub, ← EReal.coe_mul, ← EReal.coe_mul, ← EReal.coe_mul, ← EReal.coe_sub, ← EReal.coe_sub]
    refine congrArg _ ?_
    simp only [Finset.sum_sub_distrib, Finset.sum_const, nsmul_eq_mul]
    field_simp
    ring
where
  sub_self_zero : (0 : EReal) - 0 = 0 := by simp

end Cert.Lib.ScatterMeanLaw

end
-- ==== Proof.Spec.lean ====
/-
  The order of summation, with no program in sight (the law at one node is in LibScatterMeanLaw.lean).

  A running total that starts at zero and adds, for each of ten consecutive tiles of ten thousand rows, the tile's sum, is
  the sum over all hundred thousand rows: the running total after tile `n` is the sum of the first `n + 1` tile sums, and row
  `10000 t + r` is row `r` of tile `t`.
-/
import proofs.«162504_j69655779607181_2_alg».proof.Proof.LibScatterMeanLaw

noncomputable section

open scoped BigOperators

namespace Cert.Spec

open Idealize.ShloMosaic

/-- The running total over the tiles: it starts from zero at the first tile and adds each later tile's sum. -/
def running (T : ℕ → EReal) : ℕ → EReal
  | 0 => 0 + T 0
  | n + 1 => running T n + T (n + 1)

theorem running_eq_sum (T : ℕ → EReal) (n : ℕ) : running T n = ∑ t ∈ Finset.range (n + 1), T t := by
  induction n with
  | zero => simp [running]
  | succ n ih => rw [running, ih, Finset.sum_range_succ (n := n + 1)]

/-- Term `r` of tile `t` is a row of the array. -/
theorem tile_lt (t : Fin 10) (r : Fin 10000) : t.val * 10000 + r.val < 100000 := by
  have := t.isLt; have := r.isLt; omega

/-- THE ORDER OF SUMMATION: the running total after the tenth tile, each tile the sum over its ten thousand rows of the
    row's term, is the sum over all hundred thousand rows. -/
theorem running_tiles (g : Fin 100000 → EReal) :
    running (fun t => if h : t < 10 then ∑ r : Fin 10000, g ⟨t * 10000 + r.val, tile_lt ⟨t, h⟩ r⟩ else 0) 9
      = ∑ n : Fin 100000, g n := by
  rw [running_eq_sum]
  rw [Finset.sum_range (f := fun t => if h : t < 10 then ∑ r : Fin 10000, g ⟨t * 10000 + r.val, tile_lt ⟨t, h⟩ r⟩ else 0)]
  have hruns : ∑ n : Fin 100000, g n = ∑ s : Fin 10, ∑ r : Fin 10000, g ⟨s.val * 10000 + r.val, tile_lt s r⟩ := by
    rw [← Equiv.sum_comp (finProdFinEquiv (m := 10) (n := 10000)) g, Fintype.sum_prod_type]
    refine Finset.sum_congr rfl fun s _ => Finset.sum_congr rfl fun r _ => congrArg g (Fin.ext ?_)
    show r.val + 10000 * s.val = s.val * 10000 + r.val
    omega
  rw [hruns]
  refine Finset.sum_congr rfl fun s _ => ?_
  rw [dif_pos s.isLt]

end Cert.Spec

end
-- ==== Proof.KernelAccum.lean ====
/-
  The running total across the grid.

  Point `t` of the grid holds rows `10000 t … 10000 t + 9999` of the two operand arrays as its blocks; its tile sum is the sum
  over those rows and the sixteen features of the squared difference. The scratch entry after point `t` is zero plus the
  first tile's sum, plus every later tile's sum up to `t` — by induction on the point — and at the last point the output
  block holds the same number.
-/
import proofs.«162504_j69655779607181_2_alg».proof.Proof.Gen.KernelIdeal.Frame
import proofs.«162504_j69655779607181_2_alg».proof.Proof.KernelPayload
import proofs.«162504_j69655779607181_2_alg».proof.Proof.KernelPieces
import proofs.«162504_j69655779607181_2_alg».proof.Proof.Spec

noncomputable section

open Idealize.ShloMosaic Idealize.ShloMosaic.TcCoe Idealize.SL.Sem

namespace Cert.KernelIdeal.Accum

open Cert.KernelIdeal Cert.KernelIdeal.Gen Cert.KernelIdeal.Body Cert.KernelIdeal.Pieces

variable (m : (ℓ : Loc nD τ sig) → Buf (Elt Ideal) ℓ)

/-- The tile sum of grid point `t` (zero past the grid). -/
def tile (c : Dev nD) (t : ℕ) : EReal :=
  if h : t < cfg0.N then tileSum (iblk m c 0 ⟨t, h⟩) (iblk m c 1 ⟨t, h⟩) else 0

/-- At the first point the scratch ends at zero plus the tile's sum. -/
theorem step_A (c : Dev nD) (t : Fin cfg0.N) (h0 : t.val % 10 = 0) (h1 : ¬t.val % 10 = 9) (j : S1x1.Idx) :
    (outsAt0 m c t.val t.isLt).2 j = 0 + tileSum (iblk m c 0 t) (iblk m c 1 t) :=
  (congrFun ((congrArg Prod.snd (outsAt0_A m c t h0 h1)).trans
    (scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h))
      (iblk m c 0 t) (iblk m c 1 t))) j).trans
  ((pay2_apply (iblk m c 0 t) (iblk m c 1 t) (k0_pay1 (F := Ideal)) j).trans
    (congrArg (· + tileSum (iblk m c 0 t) (iblk m c 1 t)) (pay1_apply j)))

/-- At a middle point the scratch ends at what the point before left plus the tile's sum. -/
theorem step_B (c : Dev nD) (t : Fin cfg0.N) (h0 : ¬t.val % 10 = 0) (h1 : ¬t.val % 10 = 9) (j : S1x1.Idx) :
    (outsAt0 m c t.val t.isLt).2 j
      = (outsAt0 m c (t.val - 1) (Nat.lt_of_le_of_lt (Nat.sub_le _ _) t.isLt)).2 j + tileSum (iblk m c 0 t) (iblk m c 1 t) :=
  (congrFun ((congrArg Prod.snd (outsAt0_B m c t h0 h1)).trans
    (scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h))
      (iblk m c 0 t) (iblk m c 1 t) (outsAt0 m c (t.val - 1) (Nat.lt_of_le_of_lt (Nat.sub_le _ _) t.isLt)).2)) j).trans
  (pay2_apply (iblk m c 0 t) (iblk m c 1 t) _ j)

/-- At the last point likewise, -/
theorem step_C (c : Dev nD) (t : Fin cfg0.N) (h0 : ¬t.val % 10 = 0) (h1 : t.val % 10 = 9) (j : S1x1.Idx) :
    (outsAt0 m c t.val t.isLt).2 j
      = (outsAt0 m c (t.val - 1) (Nat.lt_of_le_of_lt (Nat.sub_le _ _) t.isLt)).2 j + tileSum (iblk m c 0 t) (iblk m c 1 t) :=
  (congrFun ((congrArg Prod.snd (outsAt0_C m c t h0 h1)).trans
    (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2)) j).trans
  (pay2_apply (iblk m c 0 t) (iblk m c 1 t) _ j)

/-- and the output block holds the same number as the scratch. -/
theorem out_C_eq (c : Dev nD) (t : Fin cfg0.N) (h0 : ¬t.val % 10 = 0) (h1 : t.val % 10 = 9) (j : S1x1.Idx) :
    (outsAt0 m c t.val t.isLt).1 j
      = (outsAt0 m c (t.val - 1) (Nat.lt_of_le_of_lt (Nat.sub_le _ _) t.isLt)).2 j + tileSum (iblk m c 0 t) (iblk m c 1 t) :=
  (congrFun ((congrArg Prod.fst (outsAt0_C m c t h0 h1)).trans
    (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2)) j).trans
  (pay2_apply (iblk m c 0 t) (iblk m c 1 t) _ j)

/-- THE SCRATCH AFTER POINT `n` is the running total of the tile sums. -/
theorem scratch_eq (c : Dev nD) : ∀ (n : ℕ) (hn : n < cfg0.N) (j : S1x1.Idx),
    (outsAt0 m c n hn).2 j = Cert.Spec.running (tile m c) n
  | 0, hn, j => by
    rw [step_A m c ⟨0, hn⟩ rfl (by dsimp only; omega) j]
    show _ = 0 + tile m c 0
    unfold tile
    rw [dif_pos hn]
  | n + 1, hn, j => by
    have hN : cfg0.N = 10 := N_0
    have h0 : ¬(n + 1) % 10 = 0 := by omega
    have ih := scratch_eq c n (Nat.lt_of_succ_lt hn) j
    have step : (outsAt0 m c (n + 1) hn).2 j
        = (outsAt0 m c n (Nat.lt_of_succ_lt hn)).2 j + tileSum (iblk m c 0 ⟨n + 1, hn⟩) (iblk m c 1 ⟨n + 1, hn⟩) := by
      by_cases h9 : (n + 1) % 10 = 9
      · exact step_C m c ⟨n + 1, hn⟩ h0 h9 j
      · exact step_B m c ⟨n + 1, hn⟩ h0 h9 j
    rw [step, ih]
    show _ = Cert.Spec.running (tile m c) n + tile m c (n + 1)
    unfold tile
    rw [dif_pos hn]

/-- THE OUTPUT BLOCK AT THE LAST POINT is the running total of all ten tile sums. -/
theorem out_last (c : Dev nD) (t : Fin cfg0.N) (h9 : t.val % 10 = 9) (j : S1x1.Idx) :
    (outsAt0 m c t.val t.isLt).1 j = Cert.Spec.running (tile m c) 9 := by
  have hN : cfg0.N = 10 := N_0
  have ht : t.val = 9 := by have := t.isLt; omega
  have h0 : ¬t.val % 10 = 0 := by omega
  rw [out_C_eq m c t h0 h9 j, ← step_C m c t h0 h9 j, scratch_eq m c t.val t.isLt j, ht]

end Cert.KernelIdeal.Accum

end
-- ==== Proof.LibRowGather.lean ====
/-
  A row gather read at an index: what `x[idx]` of a table `x : [N, D]` at a column of row numbers `idx : [E, 1]` is, and
  the same of a table with a unit middle axis `x : [N, 1, D]`. Result row `e` is the table's row at the start index
  `idx[e, 0]`, read as a signed integer and clamped into `[0, N − 1]` (every start index of a gather is clamped so that
  the slice fits); the other coordinates pass through. So the two tables, one the other with its unit axis dropped,
  gather the same numbers.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows of an `[N, D]` table at a column `[E, 1]` of row numbers. -/
abbrev rowsDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into the table. -/
abbrev rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the selected row, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf N hN idx e) k) := by
  unfold Host.gather
  refine congrArg x ?_
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = k.val
    rw [GatherDims.batchCoord_eq_zero _ _ _ List.not_mem_nil]
    unfold GatherDims.start
    rw [dif_neg (show (1 : Fin 2) ∉ [(0 : Fin 2)] from by decide)]
    simp only [Nat.add_zero, Nat.zero_add]
    unfold GatherDims.offCoord
    rw [dif_pos ((GatherDims.mem_sKept _ _).mpr ⟨(show (1 : Fin 2) ∉ [(0 : Fin 2)] from by decide), List.not_mem_nil⟩)]
    rfl

/-- The dimension numbers of a gather of whole rows of an `[N, 1, D]` table at a column `[E, 1]` of row numbers. -/
abbrev rowsDims3 (N D E : Nat) (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- THE ROW GATHER OF A TABLE WITH A UNIT MIDDLE AXIS READ AT `(e, u, k)`: the table at the selected row, `(0, k)`. -/
theorem gather_rows3_apply {N D E w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (u : Fin 1) (k : Fin D) :
    Host.gather (rowsDims3 N D E wf) x idx (ix3 e u k) = x (ix3 (rowOf N hN idx e) (0 : Fin 1) k) := by
  unfold Host.gather
  refine congrArg x ?_
  funext a
  refine Fin.ext ?_
  match a with
  | ⟨0, _⟩ =>
    show (rowsDims3 N D E wf).start (ix3 e u k) idx 0 + (rowsDims3 N D E wf).batchCoord (ix3 e u k) 0
      + (rowsDims3 N D E wf).offCoord (ix3 e u k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims3 N D E wf).startIndexMap from List.mem_singleton.mpr rfl)]
    have hsi : (rowsDims3 N D E wf).siIdx (ix3 e u k) ⟨List.idxOf (0 : Fin 3) (rowsDims3 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims3 N D E wf).start (ix3 e u k) idx 1 + (rowsDims3 N D E wf).batchCoord (ix3 e u k) 1
      + (rowsDims3 N D E wf).offCoord (ix3 e u k) 1 = 0
    rw [GatherDims.batchCoord_eq_zero _ _ _ List.not_mem_nil]
    unfold GatherDims.start
    rw [dif_neg (show (1 : Fin 3) ∉ [(0 : Fin 3)] from by decide)]
    simp only [Nat.add_zero, Nat.zero_add]
    unfold GatherDims.offCoord
    rw [dif_pos ((GatherDims.mem_sKept _ _).mpr ⟨(show (1 : Fin 3) ∉ [(0 : Fin 3)] from by decide), List.not_mem_nil⟩)]
    show u.val = 0
    omega
  | ⟨2, _⟩ =>
    show (rowsDims3 N D E wf).start (ix3 e u k) idx 2 + (rowsDims3 N D E wf).batchCoord (ix3 e u k) 2
      + (rowsDims3 N D E wf).offCoord (ix3 e u k) 2 = k.val
    rw [GatherDims.batchCoord_eq_zero _ _ _ List.not_mem_nil]
    unfold GatherDims.start
    rw [dif_neg (show (2 : Fin 3) ∉ [(0 : Fin 3)] from by decide)]
    simp only [Nat.add_zero, Nat.zero_add]
    unfold GatherDims.offCoord
    rw [dif_pos ((GatherDims.mem_sKept _ _).mpr ⟨(show (2 : Fin 3) ∉ [(0 : Fin 3)] from by decide), List.not_mem_nil⟩)]
    rfl

/-- An `[a, 1, c]` array with its unit middle axis dropped reads, at `(r, d)`, the operand at `(r, 0, d)`: row-major, both
    sit at `r · c + d`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (d : Fin c) :
    shapeCast ⟨2, ![a, c]⟩ x h (ix2 r d) = x (ix3 r (0 : Fin 1) d) :=
  shapeCast_apply x h _ _ (by
    rw [Shape.rowMajor_val_two, Shape.rowMajor_val_three]
    show (r.val * 1 + 0) * c + d.val = r.val * c + d.val
    rw [Nat.mul_one, Nat.add_zero])

/-- SO THE TWO GATHERS AGREE: rows gathered from the `[N, 1, D]` table, read at `(e, u, k)`, are the rows gathered from the
    table with its unit axis dropped, read at `(e, k)`. -/
theorem gather_rows3_eq_rows {N D E w : Nat} (hN : 0 < N)
    (wf : GatherDims.WF ⟨2, ![N, D]⟩ ⟨2, ![E, 1]⟩ ⟨2, ![E, D]⟩ [1] [0] [] [0] [] 1 ![1, D])
    (wf3 : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (hc : (⟨3, ![N, 1, D]⟩ : Shape).ShapeCasts ⟨2, ![N, D]⟩)
    (idx : IVec ⟨2, ![E, 1]⟩ w) (e : Fin E) (u : Fin 1) (k : Fin D) :
    Host.gather (rowsDims3 N D E wf3) x idx (ix3 e u k)
      = Host.gather (rowsDims N D E wf) (shapeCast ⟨2, ![N, D]⟩ x hc) idx (ix2 e k) := by
  rw [gather_rows3_apply hN, gather_rows_apply hN, shapeCast_a1c_ac_apply]

end Cert.LibRowGather

end
-- ==== Proof.LibScatterRows.lean ====
/-
  An accumulating scatter of rows read at an index, over the extended reals.

  `x.at[idx].add(upd)` for a table `x : [n, k]`, a column `idx : [m, 1]` of row numbers and updates `upd : [m, k]` (and the
  same for a flat `x : [n]`, `upd : [m]`): update row `e` is added to the table's row `idx[e, 0]`, the word read as a signed
  integer and NOT clamped — a row number outside `[0, n)` drops the update. So entry `(i, c)` of the result is the
  operand's entry plus the sum, over the update rows `e` that land on `i`, of `upd[e, c]`.
-/
import Idealize.ShloMosaic.Lib.ValueIdx
import Idealize.ShloMosaic.PureOps.Ideal.Laws

noncomputable section

namespace Cert.LibScatterRows

open Idealize.ShloMosaic Idealize.ShloMosaic.ValueIdx

/-- Where a row-number word lands on an axis of extent `n`: read signed, not clamped; nowhere when outside. -/
def landing (n : Nat) {w : Nat} (b : BitVec w) : Option (Fin n) :=
  if h : 0 ≤ b.toInt ∧ b.toInt < (n : Int) then some ⟨b.toInt.toNat, by omega⟩ else none

/-- The dimension numbers of a scatter of whole rows into an `[n, k]` table at a column `[m, 1]` of row numbers. -/
abbrev rowsDims (n k m : Nat) (wf : ScatterDims.WF ⟨2, ![n, k]⟩ ⟨2, ![m, 1]⟩ ⟨2, ![m, k]⟩ [1] [0] [0] 1) :
    ScatterDims ⟨2, ![n, k]⟩ ⟨2, ![m, 1]⟩ ⟨2, ![m, k]⟩ where
  updateWindowDims := [1]
  insertedWindowDims := [0]
  scatterDimsToOperandDims := [0]
  indexVectorDim := 1
  wf := wf

/-- The dimension numbers of a scatter of scalars into a flat `[n]` array at a column `[m, 1]` of positions. -/
abbrev flatDims (n m : Nat) (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

section rows
variable {n k m w : Nat} (wf : ScatterDims.WF ⟨2, ![n, k]⟩ ⟨2, ![m, 1]⟩ ⟨2, ![m, k]⟩ [1] [0] [0] 1)
  (idx : IVec ⟨2, ![m, 1]⟩ w) (e : Fin m) (c' : Fin k)

/-- On the row axis the window of update `(e, c')` starts at the row number `idx[e, 0]`, read signed. -/
theorem rows_start0 : (rowsDims n k m wf).start (ix2 e c') idx 0 = (idx (ix2 e (0 : Fin 1))).toInt := by
  unfold ScatterDims.start
  rw [dif_pos (show (0 : Fin 2) ∈ (rowsDims n k m wf).scatterDimsToOperandDims from List.mem_singleton.mpr rfl)]
  have hsi : (rowsDims n k m wf).siIdx (ix2 e c') ⟨List.idxOf (0 : Fin 2) (rowsDims n k m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index vector does not name, the window starts at `0`. -/
theorem rows_start1 : (rowsDims n k m wf).start (ix2 e c') idx 1 = 0 := by
  unfold ScatterDims.start
  rw [dif_neg (show (1 : Fin 2) ∉ [(0 : Fin 2)] from by decide)]

/-- The row axis is an inserted window axis: the window coordinate there is `0`. -/
theorem rows_window0 : (rowsDims n k m wf).window (ix2 e c') 0 = 0 := by
  unfold ScatterDims.window
  rw [dif_neg]
  simp [ScatterDims.sKept, Shape.kept, List.mem_filter, List.mem_finRange]

/-- The column axis carries the update's one window axis: the window coordinate there is `c'`. -/
theorem rows_window1 : (rowsDims n k m wf).window (ix2 e c') 1 = c'.val := by
  unfold ScatterDims.window
  rw [dif_pos (by simp [ScatterDims.sKept, Shape.kept, List.mem_filter, List.mem_finRange])]
  rfl

/-- Update `(e, c')` lands on `(i, c)` exactly when its row number lands on `i` and `c' = c`: the result index is
    `(idx[e, 0] + 0, 0 + c')`, defined when the row number is inside `[0, n)` (the column always is). -/
theorem rows_resultIdx_iff (i : Fin n) (c : Fin k) :
    (rowsDims n k m wf).resultIdx? (ix2 e c') idx = some (ix2 i c)
      ↔ landing n (idx (ix2 e (0 : Fin 1))) = some i ∧ c' = c := by
  unfold ScatterDims.resultIdx? landing
  by_cases hb : 0 ≤ (idx (ix2 e (0 : Fin 1))).toInt ∧ (idx (ix2 e (0 : Fin 1))).toInt < (n : Int)
  · have hall : ∀ a : Fin 2, 0 ≤ (rowsDims n k m wf).start (ix2 e c') idx a + (rowsDims n k m wf).window (ix2 e c') a
        ∧ (rowsDims n k m wf).start (ix2 e c') idx a + (rowsDims n k m wf).window (ix2 e c') a
            < ((⟨2, ![n, k]⟩ : Shape).size a : Int) := by
      intro a
      match a with
      | ⟨0, _⟩ =>
        show 0 ≤ (rowsDims n k m wf).start (ix2 e c') idx 0 + (rowsDims n k m wf).window (ix2 e c') 0
          ∧ (rowsDims n k m wf).start (ix2 e c') idx 0 + (rowsDims n k m wf).window (ix2 e c') 0 < (n : Int)
        rw [rows_start0, rows_window0]; omega
      | ⟨1, _⟩ =>
        show 0 ≤ (rowsDims n k m wf).start (ix2 e c') idx 1 + (rowsDims n k m wf).window (ix2 e c') 1
          ∧ (rowsDims n k m wf).start (ix2 e c') idx 1 + (rowsDims n k m wf).window (ix2 e c') 1 < (k : Int)
        rw [rows_start1, rows_window1]; have := c'.isLt; omega
    rw [dif_pos hall, dif_pos hb]
    constructor
    · intro h
      have h := Option.some.inj h
      have h0 := congrArg Fin.val (congrFun h 0)
      have h1 := congrArg Fin.val (congrFun h 1)
      change ((rowsDims n k m wf).start (ix2 e c') idx 0 + (rowsDims n k m wf).window (ix2 e c') 0).toNat = i.val at h0
      change ((rowsDims n k m wf).start (ix2 e c') idx 1 + (rowsDims n k m wf).window (ix2 e c') 1).toNat = c.val at h1
      rw [rows_start0, rows_window0] at h0
      rw [rows_start1, rows_window1] at h1
      refine ⟨congrArg some (Fin.ext ?_), Fin.ext ?_⟩
      · show (idx (ix2 e (0 : Fin 1))).toInt.toNat = i.val
        omega
      · omega
    · rintro ⟨h, hc⟩
      have h := congrArg Fin.val (Option.some.inj h)
      change (idx (ix2 e (0 : Fin 1))).toInt.toNat = i.val at h
      refine congrArg some ?_
      funext a
      refine Fin.ext ?_
      match a with
      | ⟨0, _⟩ =>
        show ((rowsDims n k m wf).start (ix2 e c') idx 0 + (rowsDims n k m wf).window (ix2 e c') 0).toNat = i.val
        rw [rows_start0, rows_window0]; omega
      | ⟨1, _⟩ =>
        show ((rowsDims n k m wf).start (ix2 e c') idx 1 + (rowsDims n k m wf).window (ix2 e c') 1).toNat = c.val
        rw [rows_start1, rows_window1, hc]; omega
  · have hnall : ¬ ∀ a : Fin 2, 0 ≤ (rowsDims n k m wf).start (ix2 e c') idx a + (rowsDims n k m wf).window (ix2 e c') a
        ∧ (rowsDims n k m wf).start (ix2 e c') idx a + (rowsDims n k m wf).window (ix2 e c') a
            < ((⟨2, ![n, k]⟩ : Shape).size a : Int) := by
      intro hall
      have h0 := hall 0
      change 0 ≤ (rowsDims n k m wf).start (ix2 e c') idx 0 + (rowsDims n k m wf).window (ix2 e c') 0
          ∧ (rowsDims n k m wf).start (ix2 e c') idx 0 + (rowsDims n k m wf).window (ix2 e c') 0 < (n : Int) at h0
      rw [rows_start0, rows_window0] at h0
      exact hb (by omega)
    rw [dif_neg hnall, dif_neg hb]
    constructor
    · intro h; cases h
    · rintro ⟨h, _⟩; cases h

end rows

/-- THE ROW SCATTER READ AT `(i, c)`: the operand there plus the updates of the rows that land on `i`, column `c`. -/
theorem scatterAdd_rows_apply {n k m w : Nat} {φ : FTy}
    (wf : ScatterDims.WF ⟨2, ![n, k]⟩ ⟨2, ![m, 1]⟩ ⟨2, ![m, k]⟩ [1] [0] [0] 1)
    (x : FVec Ideal ⟨2, ![n, k]⟩ φ) (idx : IVec ⟨2, ![m, 1]⟩ w) (upd : FVec Ideal ⟨2, ![m, k]⟩ φ) (i : Fin n) (c : Fin k) :
    Host.scatterAdd (rowsDims n k m wf) x idx upd (ix2 i c)
      = x (ix2 i c) + ∑ e ∈ Finset.univ.filter (fun e : Fin m => landing n (idx (ix2 e (0 : Fin 1))) = some i), upd (ix2 e c) := by
  show Ideal.hostScatterAdd (rowsDims n k m wf) x idx upd (ix2 i c) = _
  unfold Ideal.hostScatterAdd
  congr 1
  rw [Finset.sum_filter, sum_idx2, Finset.sum_filter]
  refine Finset.sum_congr rfl fun e _ => ?_
  simp only [rows_resultIdx_iff]
  by_cases hl : landing n (idx (ix2 e (0 : Fin 1))) = some i
  · simp only [hl, true_and, if_true]
    rw [Finset.sum_ite_eq' Finset.univ c (fun c' => upd (ix2 e c'))]
    simp
  · simp only [hl, false_and, if_false]
    exact Finset.sum_const_zero

/-- A rank-1 index set is its one coordinate range, so a sum over it is the sum over the coordinate. -/
theorem sum_idx1 {M : Type*} [AddCommMonoid M] {n0 : Nat} (f : (⟨1, ![n0]⟩ : Shape).Idx → M) :
    ∑ j, f j = ∑ a : Fin n0, f (ix1 a) := by
  let eqv : (⟨1, ![n0]⟩ : Shape).Idx ≃ Fin n0 := ⟨fun j => j 0, ix1, fun j => (eq_ix1 j).symm, fun _ => rfl⟩
  rw [← Equiv.sum_comp eqv.symm f]
  rfl

section flat
variable {n m w : Nat} (wf : ScatterDims.WF ⟨1, ![n]⟩ ⟨2, ![m, 1]⟩ ⟨1, ![m]⟩ [] [0] [0] 1)
  (idx : IVec ⟨2, ![m, 1]⟩ w) (e : Fin m)

/-- The window of update `e` starts at the position `idx[e, 0]`, read signed. -/
theorem flat_start0 : (flatDims n m wf).start (ix1 e) idx 0 = (idx (ix2 e (0 : Fin 1))).toInt := by
  unfold ScatterDims.start
  rw [dif_pos (show (0 : Fin 1) ∈ (flatDims n m wf).scatterDimsToOperandDims from List.mem_singleton.mpr rfl)]
  have hsi : (flatDims n m wf).siIdx (ix1 e) ⟨List.idxOf (0 : Fin 1) (flatDims n m wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: the window coordinate there is `0`. -/
theorem flat_window0 : (flatDims n m wf).window (ix1 e) 0 = 0 := by
  unfold ScatterDims.window
  rw [dif_neg]
  simp [ScatterDims.sKept, Shape.kept, List.mem_filter, List.mem_finRange]

/-- Update `e` lands on `i` exactly when its position word lands on `i`. -/
theorem flat_resultIdx_iff (i : Fin n) :
    (flatDims n m wf).resultIdx? (ix1 e) idx = some (ix1 i) ↔ landing n (idx (ix2 e (0 : Fin 1))) = some i := by
  unfold ScatterDims.resultIdx? landing
  by_cases hb : 0 ≤ (idx (ix2 e (0 : Fin 1))).toInt ∧ (idx (ix2 e (0 : Fin 1))).toInt < (n : Int)
  · have hall : ∀ a : Fin 1, 0 ≤ (flatDims n m wf).start (ix1 e) idx a + (flatDims n m wf).window (ix1 e) a
        ∧ (flatDims n m wf).start (ix1 e) idx a + (flatDims n m wf).window (ix1 e) a
            < ((⟨1, ![n]⟩ : Shape).size a : Int) := by
      intro a
      match a with
      | ⟨0, _⟩ =>
        show 0 ≤ (flatDims n m wf).start (ix1 e) idx 0 + (flatDims n m wf).window (ix1 e) 0
          ∧ (flatDims n m wf).start (ix1 e) idx 0 + (flatDims n m wf).window (ix1 e) 0 < (n : Int)
        rw [flat_start0, flat_window0]; omega
    rw [dif_pos hall, dif_pos hb]
    constructor
    · intro h
      have h0 := congrArg Fin.val (congrFun (Option.some.inj h) 0)
      change ((flatDims n m wf).start (ix1 e) idx 0 + (flatDims n m wf).window (ix1 e) 0).toNat = i.val at h0
      rw [flat_start0, flat_window0] at h0
      refine congrArg some (Fin.ext ?_)
      show (idx (ix2 e (0 : Fin 1))).toInt.toNat = i.val
      omega
    · intro h
      have h := congrArg Fin.val (Option.some.inj h)
      change (idx (ix2 e (0 : Fin 1))).toInt.toNat = i.val at h
      refine congrArg some ?_
      funext a
      refine Fin.ext ?_
      match a with
      | ⟨0, _⟩ =>
        show ((flatDims n m wf).start (ix1 e) idx 0 + (flatDims n m wf).window (ix1 e) 0).toNat = i.val
        rw [flat_start0, flat_window0]; omega
  · have hnall : ¬ ∀ a : Fin 1, 0 ≤ (flatDims n m wf).start (ix1 e) idx a + (flatDims n m wf).window (ix1 e) a
        ∧ (flatDims n m wf).start (ix1 e) idx a + (flatDims n m wf).window (ix1 e) a
            < ((⟨1, ![n]⟩ : Shape).size a : Int) := by
      intro hall
      have h0 := hall 0
      change 0 ≤ (flatDims n m wf).start (ix1 e) idx 0 + (flatDims n m wf).window (ix1 e) 0
          ∧ (flatDims n m wf).start (ix1 e) idx 0 + (flatDims n m wf).window (ix1 e) 0 < (n : Int) at h0
      rw [flat_start0, flat_window0] at h0
      exact hb (by omega)
    rw [dif_neg hnall, dif_neg hb]
    constructor
    · intro h; cases h
    · intro h; cases h

end flat

/-- THE FLAT SCATTER READ AT `i`: the operand there plus the updates that land on `i`. -/
theorem scatterAdd_flat_apply {n m w : Nat} {φ : FTy}
    (wf : ScatterDims.WF ⟨1, ![n]⟩ ⟨2, ![m, 1]⟩ ⟨1, ![m]⟩ [] [0] [0] 1)
    (x : FVec Ideal ⟨1, ![n]⟩ φ) (idx : IVec ⟨2, ![m, 1]⟩ w) (upd : FVec Ideal ⟨1, ![m]⟩ φ) (i : Fin n) :
    Host.scatterAdd (flatDims n m wf) x idx upd (ix1 i)
      = x (ix1 i) + ∑ e ∈ Finset.univ.filter (fun e : Fin m => landing n (idx (ix2 e (0 : Fin 1))) = some i), upd (ix1 e) := by
  show Ideal.hostScatterAdd (flatDims n m wf) x idx upd (ix1 i) = _
  unfold Ideal.hostScatterAdd
  congr 1
  rw [Finset.sum_filter, sum_idx1, Finset.sum_filter]
  refine Finset.sum_congr rfl fun e _ => ?_
  simp only [flat_resultIdx_iff]

end Cert.LibScatterRows

end
-- ==== Proof.LibEdgeIndex.lean ====
/-
  Edge-index columns of a graph: a vector of node numbers laid out as a column, a column broadcast along the features, and
  the normalisation jax applies to an index before a gather (a negative index counts from the end).  An index word that lands
  on node `i` when read signed and unclamped (the scatter's reading) is nonnegative, so the normalisation leaves it alone and
  the gather's clamped reading of it is `i` as well.
-/
import Idealize.ShloMosaic.Lib.ValueIdx
import Idealize.ShloMosaic.Lib.Pipeline.Value
import Idealize.ShloMosaic.Lib.IdealHost
import Idealize.ShloMosaic.Lib.Affine
import proofs.«162504_j69655779607181_2_alg».proof.Proof.LibRowGather
import proofs.«162504_j69655779607181_2_alg».proof.Proof.LibScatterRows

namespace Cert.Lib.EdgeIndex

open Idealize.ShloMosaic Idealize.ShloMosaic.ValueIdx
open Cert.LibRowGather (rowOf)
open Cert.LibScatterRows (landing)

variable {α : Type}

/-- A vector laid out as a column reads the vector's element. -/
theorem column_apply {a : Nat} (h : (⟨1, ![a]⟩ : Shape).BroadcastsInDim ⟨2, ![a, 1]⟩ ![0]) (v : (⟨1, ![a]⟩ : Shape).Idx → α)
    (i : Fin a) (u : Fin 1) : broadcastInDim ⟨2, ![a, 1]⟩ ![0] h v (ix2 i u) = v (ix1 i) := by
  refine broadcastInDim_apply _ h v _ _ fun d => ?_
  match d with
  | ⟨0, _⟩ =>
    show i.val = if a = 1 then 0 else i.val
    split_ifs with h1
    · omega
    · rfl

/-- A column broadcast along a second axis reads the column's element of the same row. -/
theorem column_bcast_apply {a b : Nat} (h : (⟨2, ![a, 1]⟩ : Shape).BroadcastsInDim ⟨2, ![a, b]⟩ ![0, 1])
    (v : (⟨2, ![a, 1]⟩ : Shape).Idx → α) (i : Fin a) (c : Fin b) :
    broadcastInDim ⟨2, ![a, b]⟩ ![0, 1] h v (ix2 i c) = v (ix2 i (0 : Fin 1)) := by
  refine broadcastInDim_apply _ h v _ _ fun d => ?_
  match d with
  | ⟨0, _⟩ =>
    show i.val = if a = 1 then 0 else i.val
    split_ifs with h1
    · omega
    · rfl
  | ⟨1, _⟩ =>
    show (0 : Nat) = if (1 : Nat) = 1 then 0 else c.val
    rfl

/-- A word that lands on node `i` is not negative: the index normalisation keeps it. -/
theorem normalize_of_landing {n : Nat} {b N : BitVec 32} {i : Fin n} (h : landing n b = some i) :
    Scalar.select (IntOp.cmpi .slt b 0#32) (IntOp.addi b N) b = b := by
  unfold landing at h
  split_ifs at h with hb
  unfold Scalar.select
  rw [if_neg]
  intro hc
  have := IntOp.cmpi_slt.mp hc
  rw [show (0#32 : BitVec 32).toInt = 0 from by decide] at this
  omega

/-- and its clamped reading is `i`. -/
theorem clamp_of_landing {n : Nat} (hn : 0 < n) {b : BitVec 32} {i : Fin n} (h : landing n b = some i) :
    (⟨min b.toInt.toNat (n - 1), by omega⟩ : Fin n) = i := by
  unfold landing at h
  split_ifs at h with hb
  have hi : i = ⟨b.toInt.toNat, by omega⟩ := (Option.some.inj h).symm
  subst hi
  refine Fin.ext ?_
  show min b.toInt.toNat (n - 1) = b.toInt.toNat
  omega

end Cert.Lib.EdgeIndex
-- ==== Proof.LibHostRowColumn.lean ====
/-
  Two host layouts read at an index, for any sizes and any element type.

  * row_repeated: a vector of b entries made one row [1, b] (broadcast_in_dim along axis 1) and then repeated down
    a rows (broadcast_in_dim of [1, b] into [a, b]) reads, at (e, c), the vector's entry c: a bias vector added to
    every row of a matrix.
  * column_repeated: a vector of a entries made a column [a, 1] (broadcast_in_dim along axis 0) and then repeated
    across b columns reads, at (e, c), the vector's entry e: a row maximum subtracted from, or a row sum divided
    into, every entry of its row.
-/
import Idealize.ShloMosaic.Lib.Pipeline.Value
import Idealize.ShloMosaic.Lib.ValueIdx

namespace Cert.Lib.HostRowColumn

open Idealize.ShloMosaic Idealize.ShloMosaic.ValueIdx

variable {α : Type}

/-- A vector made one row and repeated down the rows reads, at (e, c), its entry c. -/
theorem row_repeated {a b : ℕ} (β : (⟨1, ![b]⟩ : Shape).Idx → α)
    (h : (⟨1, ![b]⟩ : Shape).BroadcastsInDim ⟨2, ![1, b]⟩ (![1] : Fin 1 → Fin 2))
    (h' : (⟨2, ![1, b]⟩ : Shape).BroadcastsInDim ⟨2, ![a, b]⟩ (![0, 1] : Fin 2 → Fin 2)) (e : Fin a) (c : Fin b) :
    broadcastInDim ⟨2, ![a, b]⟩ ![0, 1] h' (broadcastInDim ⟨2, ![1, b]⟩ ![1] h β) (ix2 e c) = β (ix1 c) :=
  (broadcastInDim_apply _ h' _ (ix2 e c) (ix2 (0 : Fin 1) c) (fun ax => by
    match ax with
    | ⟨0, _⟩ => rfl
    | ⟨1, _⟩ =>
      show c.val = if b = 1 then 0 else c.val
      split
      · have := c.isLt; omega
      · rfl)).trans
  (broadcastInDim_apply _ h β (ix2 (0 : Fin 1) c) (ix1 c) (fun ax => by
    match ax with
    | ⟨0, _⟩ =>
      show c.val = if b = 1 then 0 else c.val
      split
      · have := c.isLt; omega
      · rfl))

/-- A vector made a column and repeated across the columns reads, at (e, c), its entry e. -/
theorem column_repeated {a b : ℕ} (v : (⟨1, ![a]⟩ : Shape).Idx → α)
    (h : (⟨1, ![a]⟩ : Shape).BroadcastsInDim ⟨2, ![a, 1]⟩ (![0] : Fin 1 → Fin 2))
    (h' : (⟨2, ![a, 1]⟩ : Shape).BroadcastsInDim ⟨2, ![a, b]⟩ (![0, 1] : Fin 2 → Fin 2)) (e : Fin a) (c : Fin b) :
    broadcastInDim ⟨2, ![a, b]⟩ ![0, 1] h' (broadcastInDim ⟨2, ![a, 1]⟩ ![0] h v) (ix2 e c) = v (ix1 e) :=
  (broadcastInDim_apply _ h' _ (ix2 e c) (ix2 e (0 : Fin 1)) (fun ax => by
    match ax with
    | ⟨0, _⟩ =>
      show e.val = if a = 1 then 0 else e.val
      split
      · have := e.isLt; omega
      · rfl
    | ⟨1, _⟩ => rfl)).trans
  (broadcastInDim_apply _ h v (ix2 e (0 : Fin 1)) (ix1 e) (fun ax => by
    match ax with
    | ⟨0, _⟩ =>
      show e.val = if a = 1 then 0 else e.val
      split
      · have := e.isLt; omega
      · rfl))

end Cert.Lib.HostRowColumn
-- ==== Proof.Graph.lean ====
/-
  The graph computation both programs run on the host, with no program in sight.

  An edge list `ei : [2, E]` gives each edge `e` a row word `ei[0, e]` and a column word `ei[1, e]`. A scatter-add sends edge
  `e`'s update to the node its row word names, read as a signed integer and dropped when outside `[0, N)`: `edgesOf ei n` is
  the set of edges landing on node `n`. A gather reads the table's row the index names after the index normalisation
  (a negative index counts from the end) and clamping into `[0, N - 1]`: `src ei e` is the node edge `e`'s column word
  selects. For an edge that lands on `n`, the row word is already in range, so the gather at the ROW words reads row `n`.

  `meanRows ei upd` is the scatter-add of the update rows from the zero table divided by `max (count, 1)`, `count` the
  scatter-add of ones; `own P I ei` is `P - I` on nodes with a positive count and `0` elsewhere. Each is read here at an
  index, and the last theorem is the node-level law: for real-valued `P, I`,

    own (P - I) - meanRows (gather (P - I) at the column words)
      = meanRows (gather P at the row words - gather P at the column words)
        - meanRows (gather I at the row words - gather I at the column words)          at every (n, d).
-/
import Idealize.ShloMosaic.Lib.ValueIdx
import Idealize.ShloMosaic.Lib.Pipeline.Value
import Idealize.ShloMosaic.Lib.IdealHost
import Idealize.ShloMosaic.PureOps.Ideal.Laws
import proofs.«162504_j69655779607181_2_alg».proof.Proof.LibScatterMeanLaw
import proofs.«162504_j69655779607181_2_alg».proof.Proof.LibRowGather
import proofs.«162504_j69655779607181_2_alg».proof.Proof.LibScatterRows
import proofs.«162504_j69655779607181_2_alg».proof.Proof.LibEdgeIndex
import proofs.«162504_j69655779607181_2_alg».proof.Proof.LibHostRowColumn

noncomputable section

open scoped BigOperators

namespace Cert.Graph

open Idealize.ShloMosaic Idealize.ShloMosaic.ValueIdx
open Cert.LibScatterRows (landing)

abbrev SND : Shape := ⟨2, ![100000, 16]⟩
abbrev SE2 : Shape := ⟨2, ![2, 3200000]⟩
abbrev S1E : Shape := ⟨2, ![1, 3200000]⟩
abbrev SE : Shape := ⟨1, ![3200000]⟩
abbrev S0 : Shape := ⟨0, ![]⟩
abbrev SE1 : Shape := ⟨2, ![3200000, 1]⟩
abbrev SED : Shape := ⟨2, ![3200000, 16]⟩
abbrev SN : Shape := ⟨1, ![100000]⟩
abbrev SN1 : Shape := ⟨2, ![100000, 1]⟩

/-- The shape facts the host operations carry. -/
structure Side : Prop where
  sl0 : SE2.Slices ![0, 0] S1E
  sl1 : SE2.Slices ![1, 0] S1E
  cast : S1E.ShapeCasts SE
  bE : S0.BroadcastsInDim SE ![]
  col : SE.BroadcastsInDim SE1 ![0]
  wfG : GatherDims.WF SND SE1 SED [1] [0] [] [0] [] 1 ![1, 16]
  wfS : ScatterDims.WF SND SE1 SED [1] [0] [0] 1
  wfF : ScatterDims.WF SN SE1 SE [] [0] [0] 1
  bND : S0.BroadcastsInDim SND ![]
  bN : S0.BroadcastsInDim SN ![]
  n1 : SN.BroadcastsInDim SN1 ![0]
  n1d : SN1.BroadcastsInDim SND ![0, 1]
  bN1 : S0.BroadcastsInDim SN1 ![]

variable (s : Side)

/-! ## The stages -/

/-- The row words as a vector: row 0 of the edge list. -/
def rowVec (ei : IVec SE2 32) : IVec SE 32 := shapeCast SE (extractStridedSlice S1E ![0, 0] ei s.sl0) s.cast
/-- The column words as a vector: row 1 of the edge list. -/
def colVec (ei : IVec SE2 32) : IVec SE 32 := shapeCast SE (extractStridedSlice S1E ![1, 0] ei s.sl1) s.cast
/-- The index normalisation before a gather: a negative index has the table's height added. -/
def normVec (v : IVec SE 32) : IVec SE 32 :=
  select (cmpi .slt v (broadcastInDim SE ![] s.bE (constantI S0 32 0#32)))
    (addi v (broadcastInDim SE ![] s.bE (constantI S0 32 100000#32))) v
/-- A vector of indices laid out as a column. -/
def column (v : IVec SE 32) : IVec SE1 32 := broadcastInDim SE1 ![0] s.col v
/-- Whole rows of a table gathered at a column of indices. -/
def gatherRows (x : FVec Ideal SND .f32) (idx : IVec SE1 32) : FVec Ideal SED .f32 :=
  Host.gather (Cert.LibRowGather.rowsDims 100000 16 3200000 s.wfG) x idx
/-- Update rows added into the zero table at the row words. -/
def sumRows (ei : IVec SE2 32) (upd : FVec Ideal SED .f32) : FVec Ideal SND .f32 :=
  Host.scatterAdd (Cert.LibScatterRows.rowsDims 100000 16 3200000 s.wfS)
    (broadcastInDim SND ![] s.bND (constant (F := Ideal) S0 .f32 0x00000000#32)) (column s (rowVec s ei)) upd
/-- Ones added into the zero vector at the row words: how many edges land on each node. -/
def counts (ei : IVec SE2 32) : FVec Ideal SN .f32 :=
  Host.scatterAdd (Cert.LibScatterRows.flatDims 100000 3200000 s.wfF)
    (broadcastInDim SN ![] s.bN (constant (F := Ideal) S0 .f32 0x00000000#32)) (column s (rowVec s ei))
    (broadcastInDim SE ![] s.bE (constant (F := Ideal) S0 .f32 0x3F800000#32))
/-- The count, at least one, repeated across the features. -/
def denom (ei : IVec SE2 32) : FVec Ideal SND .f32 :=
  broadcastInDim SND ![0, 1] s.n1d (broadcastInDim SN1 ![0] s.n1
    (maximumf (counts s ei) (broadcastInDim SN ![] s.bN (constant (F := Ideal) S0 .f32 0x3F800000#32))))
/-- The mean of the update rows landing on each node. -/
def meanRows (ei : IVec SE2 32) (upd : FVec Ideal SED .f32) : FVec Ideal SND .f32 :=
  Host.divf (sumRows s ei upd) (denom s ei)
/-- Which nodes have an edge landing on them, repeated across the features. -/
def mask (ei : IVec SE2 32) : IVec SND 1 :=
  broadcastInDim SND ![0, 1] s.n1d
    (cmpf .ogt (broadcastInDim SN1 ![0] s.n1 (counts s ei)) (broadcastInDim SN1 ![] s.bN1 (constant (F := Ideal) S0 .f32 0x00000000#32)))
/-- `P - I` on the nodes with an edge landing on them, zero elsewhere. -/
def own (P I : FVec Ideal SND .f32) (ei : IVec SE2 32) : FVec Ideal SND .f32 :=
  select (mask s ei) (subf P I) (broadcastInDim SND ![] s.bND (constant (F := Ideal) S0 .f32 0x00000000#32))

/-! ## The words, the landing sets, the selected nodes -/

def rowWord (ei : IVec SE2 32) (e : Fin 3200000) : BitVec 32 := ei (ix2 (0 : Fin 2) e)
def colWord (ei : IVec SE2 32) (e : Fin 3200000) : BitVec 32 := ei (ix2 (1 : Fin 2) e)
def normWord (b : BitVec 32) : BitVec 32 := Scalar.select (IntOp.cmpi .slt b 0#32) (IntOp.addi b 100000#32) b

/-- The edges whose row word lands on node `n`. -/
def edgesOf (ei : IVec SE2 32) (n : Fin 100000) : Finset (Fin 3200000) :=
  Finset.univ.filter fun e => landing 100000 (rowWord ei e) = some n

/-- The node edge `e`'s column word selects in a gather. -/
def src (ei : IVec SE2 32) (e : Fin 3200000) : Fin 100000 :=
  ⟨min (normWord (colWord ei e)).toInt.toNat (100000 - 1), by omega⟩

/-! ## The stages read at an index -/

theorem rowVec_apply (ei : IVec SE2 32) (e : Fin 3200000) : rowVec s ei (ix1 e) = rowWord ei e := by
  unfold rowVec rowWord
  refine (shapeCast_apply _ s.cast (ix1 e) (ix2 (0 : Fin 1) e) ?_).trans ?_
  · rw [Shape.rowMajor_val_two, Shape.rowMajor_val_one]
    show 0 * 3200000 + e.val = e.val
    omega
  · exact extractStridedSlice_apply ![0, 0] ei s.sl0 (ix2 (0 : Fin 1) e) (ix2 (0 : Fin 2) e) (fun a => by
      match a with
      | ⟨0, _⟩ => rfl
      | ⟨1, _⟩ => show e.val = 0 + e.val; omega)

theorem colVec_apply (ei : IVec SE2 32) (e : Fin 3200000) : colVec s ei (ix1 e) = colWord ei e := by
  unfold colVec colWord
  refine (shapeCast_apply _ s.cast (ix1 e) (ix2 (0 : Fin 1) e) ?_).trans ?_
  · rw [Shape.rowMajor_val_two, Shape.rowMajor_val_one]
    show 0 * 3200000 + e.val = e.val
    omega
  · exact extractStridedSlice_apply ![1, 0] ei s.sl1 (ix2 (0 : Fin 1) e) (ix2 (1 : Fin 2) e) (fun a => by
      match a with
      | ⟨0, _⟩ => rfl
      | ⟨1, _⟩ => show e.val = 0 + e.val; omega)

theorem normVec_apply (v : IVec SE 32) (e : Fin 3200000) : normVec s v (ix1 e) = normWord (v (ix1 e)) := rfl

theorem column_apply (v : IVec SE 32) (e : Fin 3200000) (u : Fin 1) : column s v (ix2 e u) = v (ix1 e) :=
  Cert.Lib.EdgeIndex.column_apply s.col v e u

/-- The gather at the column words reads the selected node's row. -/
theorem gather_col_apply (x : FVec Ideal SND .f32) (ei : IVec SE2 32) (e : Fin 3200000) (d : Fin 16) :
    gatherRows s x (column s (normVec s (colVec s ei))) (ix2 e d) = x (ix2 (src ei e) d) := by
  unfold gatherRows
  refine (Cert.LibRowGather.gather_rows_apply (by decide) s.wfG x _ e d).trans ?_
  refine congrArg (fun r => x (ix2 r d)) (Fin.ext ?_)
  show min ((column s (normVec s (colVec s ei))) (ix2 e (0 : Fin 1))).toInt.toNat (100000 - 1) = _
  rw [column_apply, normVec_apply, colVec_apply]
  rfl

/-- The gather at the row words, for an edge that lands on `n`, reads row `n`. -/
theorem gather_row_apply (x : FVec Ideal SND .f32) (ei : IVec SE2 32) (n : Fin 100000) (e : Fin 3200000)
    (h : landing 100000 (rowWord ei e) = some n) (d : Fin 16) :
    gatherRows s x (column s (normVec s (rowVec s ei))) (ix2 e d) = x (ix2 n d) := by
  unfold gatherRows
  refine (Cert.LibRowGather.gather_rows_apply (by decide) s.wfG x _ e d).trans ?_
  refine congrArg (fun r => x (ix2 r d)) ?_
  have hw : (column s (normVec s (rowVec s ei))) (ix2 e (0 : Fin 1)) = rowWord ei e := by
    rw [column_apply, normVec_apply, rowVec_apply]
    exact Cert.Lib.EdgeIndex.normalize_of_landing h
  show (⟨min ((column s (normVec s (rowVec s ei))) (ix2 e (0 : Fin 1))).toInt.toNat (100000 - 1), _⟩ : Fin 100000) = n
  refine Eq.trans (Fin.ext ?_) (Cert.Lib.EdgeIndex.clamp_of_landing (by decide) h)
  show min ((column s (normVec s (rowVec s ei))) (ix2 e (0 : Fin 1))).toInt.toNat (100000 - 1) = _
  rw [hw]

theorem rowColumn_word (ei : IVec SE2 32) (e : Fin 3200000) :
    column s (rowVec s ei) (ix2 e (0 : Fin 1)) = rowWord ei e := (column_apply s _ e 0).trans (rowVec_apply s ei e)

/-- The zero splat reads zero everywhere, the one splat one. -/
theorem zero_splat {T : Shape} (h : S0.BroadcastsInDim T ![]) (j : T.Idx) :
    broadcastInDim T ![] h (constant (F := Ideal) S0 .f32 0x00000000#32) j = 0 :=
  (broadcastInDim_scalar_apply h _ j).trans ((constant_apply _ _).trans Ideal.ofBits_zero_f32)

theorem one_splat {T : Shape} (h : S0.BroadcastsInDim T ![]) (j : T.Idx) :
    broadcastInDim T ![] h (constant (F := Ideal) S0 .f32 0x3F800000#32) j = 1 :=
  (broadcastInDim_scalar_apply h _ j).trans ((constant_apply _ _).trans Ideal.ofBits_one_f32)

theorem sumRows_apply (ei : IVec SE2 32) (upd : FVec Ideal SED .f32) (n : Fin 100000) (d : Fin 16) :
    sumRows s ei upd (ix2 n d) = 0 + ∑ e ∈ edgesOf ei n, upd (ix2 e d) := by
  unfold sumRows edgesOf
  refine (Cert.LibScatterRows.scatterAdd_rows_apply s.wfS _ _ upd n d).trans ?_
  refine congrArg₂ (· + ·) (zero_splat s.bND _) ?_
  refine Finset.sum_congr (Finset.filter_congr fun e _ => ?_) fun _ _ => rfl
  rw [rowColumn_word]

theorem counts_apply (ei : IVec SE2 32) (n : Fin 100000) :
    counts s ei (ix1 n) = 0 + ∑ _e ∈ edgesOf ei n, (1 : EReal) := by
  unfold counts edgesOf
  refine (Cert.LibScatterRows.scatterAdd_flat_apply s.wfF _ _ _ n).trans ?_
  refine congrArg₂ (· + ·) (zero_splat s.bN _) ?_
  refine Finset.sum_congr (Finset.filter_congr fun e _ => ?_) fun e _ => one_splat s.bE _
  rw [rowColumn_word]

theorem denom_apply (ei : IVec SE2 32) (n : Fin 100000) (d : Fin 16) :
    denom s ei (ix2 n d) = max (counts s ei (ix1 n)) 1 := by
  unfold denom
  refine (Cert.Lib.HostRowColumn.column_repeated _ s.n1 s.n1d n d).trans ?_
  refine (maximumf_apply _ _ _).trans ?_
  exact congrArg (max (counts s ei (ix1 n))) (one_splat s.bN _)

theorem meanRows_apply (ei : IVec SE2 32) (upd : FVec Ideal SED .f32) (n : Fin 100000) (d : Fin 16) :
    meanRows s ei upd (ix2 n d)
      = Ideal.div (0 + ∑ e ∈ edgesOf ei n, upd (ix2 e d)) (max (0 + ∑ _e ∈ edgesOf ei n, (1 : EReal)) 1) := by
  unfold meanRows
  rw [hostDivf_apply, sumRows_apply, denom_apply, counts_apply]

/-- A select on a "greater than" test is an `if` on the order. -/
theorem select_ogt (x y a b : EReal) : Scalar.select (Ideal.cmp .ogt x y) a b = if y < x then a else b := by
  unfold Scalar.select Ideal.cmp
  by_cases h : y < x <;> simp [h]

theorem mask_apply (ei : IVec SE2 32) (n : Fin 100000) (d : Fin 16) :
    mask s ei (ix2 n d) = Ideal.cmp .ogt (counts s ei (ix1 n)) 0 := by
  unfold mask
  refine (Cert.Lib.EdgeIndex.column_bcast_apply s.n1d _ n d).trans ?_
  refine (cmpf_apply _ _ _ _).trans ?_
  refine (Ideal.cmpf_def _ _ _).trans ?_
  exact congrArg₂ (Ideal.cmp .ogt) (Cert.Lib.EdgeIndex.column_apply s.n1 (counts s ei) n 0) (zero_splat s.bN1 _)

theorem own_apply (P I : FVec Ideal SND .f32) (ei : IVec SE2 32) (n : Fin 100000) (d : Fin 16) :
    own s P I ei (ix2 n d)
      = if (0 : EReal) < 0 + ∑ _e ∈ edgesOf ei n, (1 : EReal) then P (ix2 n d) - I (ix2 n d) else 0 := by
  unfold own
  refine (select_apply _ _ _ _).trans ?_
  rw [mask_apply, zero_splat, subf_apply, select_ogt, counts_apply]

/-! ## The law at a node -/

/-- THE TWO ARRANGEMENTS AGREE at every node and feature, for real-valued inputs. -/
theorem node_eq (P I : FVec Ideal SND .f32) (hP : ∀ j, ∃ r : ℝ, P j = (r : EReal)) (hI : ∀ j, ∃ r : ℝ, I j = (r : EReal))
    (ei : IVec SE2 32) (n : Fin 100000) (d : Fin 16) :
    own s P I ei (ix2 n d)
        - meanRows s ei (gatherRows s (subf P I) (column s (normVec s (colVec s ei)))) (ix2 n d)
      = meanRows s ei (subf (gatherRows s P (column s (normVec s (rowVec s ei))))
            (gatherRows s P (column s (normVec s (colVec s ei))))) (ix2 n d)
        - meanRows s ei (subf (gatherRows s I (column s (normVec s (rowVec s ei))))
            (gatherRows s I (column s (normVec s (colVec s ei))))) (ix2 n d) := by
  choose p hp using hP
  choose q hq using hI
  rw [own_apply, meanRows_apply, meanRows_apply, meanRows_apply]
  have e1 : ∑ e ∈ edgesOf ei n, (gatherRows s (subf P I) (column s (normVec s (colVec s ei)))) (ix2 e d)
      = ∑ e ∈ edgesOf ei n, (((p (ix2 (src ei e) d) : ℝ) : EReal) - ((q (ix2 (src ei e) d) : ℝ) : EReal)) :=
    Finset.sum_congr rfl fun e _ => by
      rw [gather_col_apply]
      show P _ - I _ = _
      rw [hp, hq]
  have e2 : ∑ e ∈ edgesOf ei n, (subf (gatherRows s P (column s (normVec s (rowVec s ei))))
        (gatherRows s P (column s (normVec s (colVec s ei))))) (ix2 e d)
      = ∑ e ∈ edgesOf ei n, (((p (ix2 n d) : ℝ) : EReal) - ((p (ix2 (src ei e) d) : ℝ) : EReal)) :=
    Finset.sum_congr rfl fun e he => by
      show gatherRows s P _ (ix2 e d) - gatherRows s P _ (ix2 e d) = _
      rw [gather_row_apply s P ei n e (Finset.mem_filter.mp he).2 d, gather_col_apply, hp, hp]
  have e3 : ∑ e ∈ edgesOf ei n, (subf (gatherRows s I (column s (normVec s (rowVec s ei))))
        (gatherRows s I (column s (normVec s (colVec s ei))))) (ix2 e d)
      = ∑ e ∈ edgesOf ei n, (((q (ix2 n d) : ℝ) : EReal) - ((q (ix2 (src ei e) d) : ℝ) : EReal)) :=
    Finset.sum_congr rfl fun e he => by
      show gatherRows s I _ (ix2 e d) - gatherRows s I _ (ix2 e d) = _
      rw [gather_row_apply s I ei n e (Finset.mem_filter.mp he).2 d, gather_col_apply, hq, hq]
  rw [e1, e2, e3, hp, hq]
  exact Cert.Lib.ScatterMeanLaw.node_law (edgesOf ei n) (p (ix2 n d)) (q (ix2 n d)) (fun e => p (ix2 (src ei e) d))
    (fun e => q (ix2 (src ei e) d))

end Cert.Graph

end
-- ==== Proof.KernelValue.lean ====
/-
  The kernel program's result as a function of its arguments.

  Grid point `t` reads rows `10000 t + r` of the two operand arrays, so the running total after the last point is the sum
  over all hundred thousand rows and sixteen features of the squared difference of the operands. The output's one block is
  written back once, after the last point, and it is the whole one-entry array; the host then reshapes it to a scalar and
  divides by the literal 100000.
-/
import proofs.«162504_j69655779607181_2_alg».proof.Proof.Gen.KernelIdeal.Frame
import proofs.«162504_j69655779607181_2_alg».proof.Proof.KernelAccum
import proofs.«162504_j69655779607181_2_alg».proof.Proof.Graph
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.StableHlo
open Idealize.ShloMosaic.ValueIdx
open Idealize.ShloMosaic.Pipeline (Dat)

namespace Cert.KernelIdeal.RegionValue

open Cert.KernelIdeal Cert.KernelIdeal.Gen Cert.KernelIdeal.Accum Cert.KernelIdeal.Body

variable (m : (ℓ : Loc nD τ sig) → Buf (Elt Ideal) ℓ) (ρ : Dev nD → PrngReg)

/-! ## A block is ten thousand consecutive rows of its operand array -/

/-- Both input windows step one block of rows per grid point and never move along the features. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem row_lt (t : Fin cfg0.N) (r : Fin 10000) : t.val * 10000 + r.val < 100000 := by
  have hN : cfg0.N = 10 := N_0
  have := t.isLt; have := r.isLt; omega

/-- Entry `(r, d)` of point `t`'s block of the first operand sits at row `10000 t + r` of the array; -/
theorem emb0 (t : Fin cfg0.N) (r : Fin 10000) (d : Fin 16) :
    ((cfg0.win 0).blk t).view.emb (ix2 r d) = ix2 ⟨t.val * 10000 + r.val, row_lt t r⟩ d := by
  funext a; apply Fin.ext
  match a with
  | ⟨0, _⟩ =>
    show win0_0.index t (0 : Fin 2) * 10000 + 1 * r.val = t.val * 10000 + r.val
    rw [(idx_facts t).1]; omega
  | ⟨1, _⟩ =>
    show win0_0.index t (1 : Fin 2) * 16 + 1 * d.val = d.val
    rw [(idx_facts t).2.1]; omega

/-- and likewise of the second operand. -/
theorem emb1 (t : Fin cfg0.N) (r : Fin 10000) (d : Fin 16) :
    ((cfg0.win 1).blk t).view.emb (ix2 r d) = ix2 ⟨t.val * 10000 + r.val, row_lt t r⟩ d := by
  funext a; apply Fin.ext
  match a with
  | ⟨0, _⟩ =>
    show win0_1.index t (0 : Fin 2) * 10000 + 1 * r.val = t.val * 10000 + r.val
    rw [(idx_facts t).2.2.1]; omega
  | ⟨1, _⟩ =>
    show win0_1.index t (1 : Fin 2) * 16 + 1 * d.val = d.val
    rw [(idx_facts t).2.2.2]; omega

/-- The two operand arrays of the kernel call: what the host operations before the call leave in the two buffers the
    call reads. Nothing in this module depends on what they hold. -/
def opA (c : Dev nD) : Cert.Graph.SND.Idx → EReal := V m c (Pipeline.arrRef spec0 0)
def opB (c : Dev nD) : Cert.Graph.SND.Idx → EReal := V m c (Pipeline.arrRef spec0 1)

/-- Reading point `t`'s block of ANY array through the first window: row `10000 t + r`. -/
theorem blk0_read (c : Dev nD) (A : Buf (Elt Ideal) ((c : Thread nD τ).loc (Pipeline.arrRef spec0 0))) (t : Fin cfg0.N)
    (r : Fin 10000) (d : Fin 16) :
    (((cfg0.win 0).blk t).view.read (Elt Ideal) A : Vec Ideal S10000x16 .f32) (ix2 r d)
      = (A : Cert.Graph.SND.Idx → EReal) (ix2 ⟨t.val * 10000 + r.val, row_lt t r⟩ d) := by
  rw [View.read_apply, emb0]
  rfl

/-- The same through the second window. -/
theorem blk1_read (c : Dev nD) (A : Buf (Elt Ideal) ((c : Thread nD τ).loc (Pipeline.arrRef spec0 1))) (t : Fin cfg0.N)
    (r : Fin 10000) (d : Fin 16) :
    (((cfg0.win 1).blk t).view.read (Elt Ideal) A : Vec Ideal S10000x16 .f32) (ix2 r d)
      = (A : Cert.Graph.SND.Idx → EReal) (ix2 ⟨t.val * 10000 + r.val, row_lt t r⟩ d) := by
  rw [View.read_apply, emb1]
  rfl

theorem iblk0_apply (c : Dev nD) (t : Fin cfg0.N) (r : Fin 10000) (d : Fin 16) :
    (iblk m c 0 t : Vec Ideal S10000x16 .f32) (ix2 r d) = opA m c (ix2 ⟨t.val * 10000 + r.val, row_lt t r⟩ d) := by
  unfold iblk opA
  exact blk0_read c _ t r d

theorem iblk1_apply (c : Dev nD) (t : Fin cfg0.N) (r : Fin 10000) (d : Fin 16) :
    (iblk m c 1 t : Vec Ideal S10000x16 .f32) (ix2 r d) = opB m c (ix2 ⟨t.val * 10000 + r.val, row_lt t r⟩ d) := by
  unfold iblk opB
  exact blk1_read c _ t r d

/-! ## The total -/

/-- The squared difference of the two operand arrays at a node, summed over the features. -/
def rowTerm (c : Dev nD) (n : Fin 100000) : EReal :=
  ∑ d : Fin 16, (opA m c (ix2 n d) - opB m c (ix2 n d)) * (opA m c (ix2 n d) - opB m c (ix2 n d))

/-- The running total after the last grid point. -/
def total (c : Dev nD) : EReal := Cert.Spec.running (tile m c) 9

/-- It is the sum over all nodes. -/
theorem total_eq (c : Dev nD) : total m c = ∑ n : Fin 100000, rowTerm m c n := by
  have hN : cfg0.N = 10 := N_0
  unfold total
  rw [← Cert.Spec.running_tiles (rowTerm m c)]
  refine congrArg (fun T => Cert.Spec.running T 9) (funext fun t => ?_)
  unfold tile
  by_cases h : t < 10
  · rw [dif_pos (show t < cfg0.N by omega), dif_pos h]
    unfold tileSum rowTerm
    refine Finset.sum_congr rfl fun r _ => Finset.sum_congr rfl fun d _ => ?_
    rw [iblk0_apply m c ⟨t, by omega⟩ r d, iblk1_apply m c ⟨t, by omega⟩ r d]
  · rw [dif_neg (show ¬t < cfg0.N by omega), dif_neg h]

/-! ## The write-back -/

/-- The one-entry result array after the region. -/
abbrev result (c : Dev nD) : Buf (Elt Ideal) ((c : Thread nD τ).loc main_v28) := fun _ => total m c

/-- A constant array read through any block of the output window is that constant. -/
theorem read_const (c : Dev nD) (t : Fin cfg0.N) (K : EReal) :
    ((cfg0.win 2).blk t).view.read (Elt Ideal) ((fun _ => K) : Buf (Elt Ideal) ((c : Thread nD τ).loc main_v28))
      = fun _ => K := by
  funext y
  rw [View.read_apply]
  rfl

/-- The output block at the last point holds the total. -/
theorem out_total (c : Dev nD) (t : Fin cfg0.N) (h9 : t.val % 10 = 9) (j : S1x1.Idx) :
    (outsAt0 m c t.val t.isLt).1 j = total m c := by
  unfold total
  exact out_last m c t h9 j

theorem flushed_eq (c : Dev nD) (t : Fin cfg0.N) (hf : (cfg0.win 2).flush t = true) :
    (dats m 0 c).flushed 2 t = ((cfg0.win 2).blk t).view.read (Elt Ideal) (result m c) := by
  have h9 : t.val % 10 = 9 := (flush0_2 t).mp hf
  rw [read_const c t (total m c)]
  funext y
  exact (congrFun (after0_2 m c t) _).trans (out_total m c t h9 _)

theorem final (c : Dev nD) : (dats m 0 c).arrAt 2 cfg0.N = result m c :=
  (dats m 0 c).arrAt_eq_of_cover 2 (result m c) (flushed_eq m c) fun i =>
    ⟨t0_9, (flush0_2 t0_9).mpr rfl, by
      show i ∈ ((View.whole main_v28).slice (win0_2.rect t0_9)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_9 0 * win0_2.size 0 ≤ (i 0 : Nat) ∧ (i 0 : Nat) < win0_2.index t0_9 0 * win0_2.size 0 + win0_2.xsize (grid0.coords t0_9) 0
        rw [show win0_2.index t0_9 0 * win0_2.size 0 = 0 from by decide +kernel, show win0_2.xsize (grid0.coords t0_9) 0 = 1 from by decide +kernel]; omega
      | ⟨1, _⟩ =>
        show win0_2.index t0_9 1 * win0_2.size 1 ≤ (i 1 : Nat) ∧ (i 1 : Nat) < win0_2.index t0_9 1 * win0_2.size 1 + win0_2.xsize (grid0.coords t0_9) 1
        rw [show win0_2.index t0_9 1 * win0_2.size 1 = 0 from by decide +kernel, show win0_2.xsize (grid0.coords t0_9) 1 = 1 from by decide +kernel]; omega⟩

/-! ## The host tail and the run -/

/-- The program's result: the total divided by the literal. -/
abbrev answer (c : Dev nD) : Buf (Elt Ideal) ((c.tc : Thread nD τ).loc main_v30) :=
  fun _ => Ideal.div (total m c) (Ideal.ofBits .f32 0x47C35000#32)

theorem tail_eq (c : Dev nD) :
    Pipeline.afterTail₀ cfgs (dats m) 0 (V0 m) [hostOps1] c main_v30 = answer m c := by
  unfold Pipeline.afterTail₀
  show StableHlo.after hostOps1 _ (Proc.devRef .tc main_v30) = _
  after_results
  have hw : Pipeline.withArrays (cfgs 0).spec c (V0 m c) (fun w => (dats m 0 c).arrAt w (cfgs 0).N) (Proc.devRef .tc main_v28)
      = result m c := (Pipeline.withArrays_arr spec0 launch0.win.arr_inj c _ _ 2).trans (final m c)
  rw [hw]
  dsimp only [result, answer]
  generalize total m c = K
  funext i
  refine (hostDivf_apply _ _ i).trans ?_
  exact congrArg₂ Ideal.div rfl (constant_apply _ _)

/-- THE KERNEL PROGRAM'S RUN: it ends with the result at the total divided by the literal, the arguments unchanged. -/
theorem run : θ_run defs (onTc (τ := τ) (main (F := Ideal))) ⟨m, fun _ => 0, ρ⟩ fun r => ∀ c : Dev nD,
      r.2.mem ((c.tc : Thread nD τ).loc main_v30) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v30 (Pipeline.mem_restRefs_of main_v30 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RegionValue

end
-- ==== Proof.KernelHost.lean ====
/-
  The two arrays the kernel call is handed, as functions of the program's arguments.

  Before the call the host forms `P - I`, gathers its rows at the column words, adds them into the zero table at the
  row words, and divides by `max (count, 1)`: the second operand is the mean over each node's edges of `(P - I)` at the
  edge's selected node. The first operand is `P - I` on the nodes that have an edge and zero elsewhere; the host forms it
  by a select whose three inputs (the test `count > 0`, `P - I`, the zero constant) are read here one at a time, the
  select itself over an arbitrary state of the buffers.
-/
import proofs.«162504_j69655779607181_2_alg».proof.Proof.Gen.KernelIdeal.Frame
import proofs.«162504_j69655779607181_2_alg».proof.Proof.Graph
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.HostValue

open Cert.KernelIdeal Cert.KernelIdeal.Gen

variable (m : (ℓ : Loc nD τ sig) → Buf (Elt Ideal) ℓ)

/-- The kernel program's shape facts, bundled. -/
theorem side : Cert.Graph.Side :=
  ⟨slices_S2x3200000_S1x3200000_0_0, slices_S2x3200000_S1x3200000_1_0, shapeCasts_S1x3200000_S3200000, bcast_S_S3200000,
    bcast_S3200000_S3200000x1_0, gather_S100000x16_S3200000x1_S3200000x16_1_0_n_n_0_1_116_wf,
    scatter_S100000x16_S3200000x1_S3200000x16_1_0_0_1_wf, scatter_S100000_S3200000x1_S3200000_n_0_0_1_wf,
    bcast_S_S100000x16, bcast_S_S100000, bcast_S100000_S100000x1_0, bcast_S100000x1_S100000x16_0_1, bcast_S_S100000x1⟩

/-- The three arguments on core `c`. -/
abbrev argP (c : Dev nD) : FVec Ideal Cert.Graph.SND .f32 := m ((c.tc : Thread nD τ).loc main_arg0)
abbrev argI (c : Dev nD) : FVec Ideal Cert.Graph.SND .f32 := m ((c.tc : Thread nD τ).loc main_arg1)
abbrev argE (c : Dev nD) : IVec Cert.Graph.SE2 32 := m ((c.tc : Thread nD τ).loc main_arg2)

/-- Two lines of host operations run one after the other. -/
theorem after_append (l1 l2 : List (HloOp τ sig (Elt Ideal))) (G : Valuation τ sig (Elt Ideal)) :
    StableHlo.after (l1 ++ l2) G = StableHlo.after l2 (StableHlo.after l1 G) := by
  induction l1 generalizing G with
  | nil => rfl
  | cons op ops ih => exact ih (op.result G)

/-- The select, from any state of the buffers: its result is the select of the three buffers it reads. -/
theorem where_result (G : Valuation τ sig (Elt Ideal)) :
    (StableHlo.after (hostOps0_1 (F := Ideal)) G (Proc.devRef .tc main_v27) : Cert.Graph.SND.Idx → EReal)
      = select (broadcastInDim S100000x16 ![0, 1] bcast_S100000x1_S100000x16_0_1 (G (Proc.devRef .tc main_v26)))
          (G (Proc.devRef .tc main_v4))
          (broadcastInDim S100000x16 ![] bcast_S_S100000x16 (G (Proc.devRef .tc main_cst_5))) := by
  simp only [hostOps0_1]
  after_results
  rfl

set_option maxHeartbeats 16000000 in
set_option maxRecDepth 65536 in
/-- The test: the count, as a column, is greater than zero. -/
theorem pre_test (c : Dev nD) :
    (StableHlo.after (hostOps0 (F := Ideal)) (fun b => m (c, b)) (Proc.devRef .tc main_v26) : Cert.Graph.SN1.Idx → BitVec 1)
      = cmpf .ogt (broadcastInDim Cert.Graph.SN1 ![0] side.n1 (Cert.Graph.counts side (argE m c)))
          (broadcastInDim Cert.Graph.SN1 ![] side.bN1 (constant (F := Ideal) Cert.Graph.S0 .f32 0x00000000#32)) := by
  simp only [hostOps0]
  after_results
  rfl

set_option maxHeartbeats 16000000 in
set_option maxRecDepth 65536 in
/-- The difference of the two float arguments. -/
theorem pre_diff (c : Dev nD) :
    (StableHlo.after (hostOps0 (F := Ideal)) (fun b => m (c, b)) (Proc.devRef .tc main_v4) : Cert.Graph.SND.Idx → EReal)
      = subf (argP m c) (argI m c) := by
  simp only [hostOps0]
  after_results

set_option maxHeartbeats 16000000 in
set_option maxRecDepth 65536 in
/-- The zero constant. -/
theorem pre_zero (c : Dev nD) :
    (StableHlo.after (hostOps0 (F := Ideal)) (fun b => m (c, b)) (Proc.devRef .tc main_cst_5) : Cert.Graph.S0.Idx → EReal)
      = constant (F := Ideal) Cert.Graph.S0 .f32 0x00000000#32 := by
  simp only [hostOps0]
  after_results

/-- The first operand: `P - I` where the node has an edge, zero elsewhere. -/
theorem V_own (c : Dev nD) :
    (V m c (Pipeline.arrRef spec0 0) : Cert.Graph.SND.Idx → EReal) = Cert.Graph.own side (argP m c) (argI m c) (argE m c) := by
  dsimp only [Gen.V, Gen.V0]
  show (StableHlo.after (List.flatten [hostOps0 (F := Ideal), hostOps0_1]) (fun b => m (c, b)) (Proc.devRef .tc main_v27) : Cert.Graph.SND.Idx → EReal) = _
  simp only [List.flatten_cons, List.flatten_nil, List.append_nil]
  rw [after_append, where_result, pre_test, pre_diff, pre_zero]
  rfl

set_option maxHeartbeats 16000000 in
set_option maxRecDepth 65536 in
/-- The second operand: the mean of `(P - I)` over each node's edges, at the edges' selected nodes. -/
theorem V_mean (c : Dev nD) :
    (V m c (Pipeline.arrRef spec0 1) : Cert.Graph.SND.Idx → EReal)
      = Cert.Graph.meanRows side (argE m c) (Cert.Graph.gatherRows side (subf (argP m c) (argI m c))
          (Cert.Graph.column side (Cert.Graph.normVec side (Cert.Graph.colVec side (argE m c))))) := by
  dsimp only [Gen.V, Gen.V0]
  show (StableHlo.after (List.flatten [hostOps0 (F := Ideal), hostOps0_1]) (fun b => m (c, b)) (Proc.devRef .tc main_v23) : Cert.Graph.SND.Idx → EReal) = _
  simp only [Gen.hostOps0, Gen.hostOps0_1, List.flatten_cons, List.flatten_nil, List.append_nil, List.cons_append, List.nil_append]
  after_results
  rfl

end Cert.KernelIdeal.HostValue

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.RefValue.lean ====
/-
  The reference program's result as a function of its arguments.

  It gathers `P` at the row words and at the column words, subtracts, takes the mean over each node's edges, does the same
  for `I`, subtracts the two means, squares, sums each node's sixteen features from zero, sums the hundred thousand node
  sums from zero, and divides by the literal 100000.
-/
import proofs.«162504_j69655779607181_2_alg».proof.Proof.Gen.ReferenceIdeal.Read
import proofs.«162504_j69655779607181_2_alg».proof.Proof.Graph
import proofs.«162504_j69655779607181_2_alg».proof.Proof.LibKeepdimsColumn

noncomputable section

open scoped BigOperators
open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read

/-- The reference program's shape facts, bundled (the scalar-to-column broadcast it never uses is decided here). -/
theorem side : Cert.Graph.Side :=
  ⟨slices_S2x3200000_S1x3200000_0_0, slices_S2x3200000_S1x3200000_1_0, shapeCasts_S1x3200000_S3200000, bcast_S_S3200000,
    bcast_S3200000_S3200000x1_0, gather_S100000x16_S3200000x1_S3200000x16_1_0_n_n_0_1_116_wf,
    scatter_S100000x16_S3200000x1_S3200000x16_1_0_0_1_wf, scatter_S100000_S3200000x1_S3200000_n_0_0_1_wf,
    bcast_S_S100000x16, bcast_S_S100000, bcast_S100000_S100000x1_0, bcast_S100000x1_S100000x16_0_1, by decide⟩

variable (P I : FVec Ideal Cert.Graph.SND .f32) (E : IVec Cert.Graph.SE2 32)

/-- The mean over each node's edges of `x` at the node itself minus `x` at the edge's selected node. -/
abbrev meanDiff (x : FVec Ideal Cert.Graph.SND .f32) : FVec Ideal Cert.Graph.SND .f32 :=
  Cert.Graph.meanRows side E (subf
    (Cert.Graph.gatherRows side x (Cert.Graph.column side (Cert.Graph.normVec side (Cert.Graph.rowVec side E))))
    (Cert.Graph.gatherRows side x (Cert.Graph.column side (Cert.Graph.normVec side (Cert.Graph.colVec side E)))))

theorem v30_eq : val_main_v30 (F := Ideal) P E = meanDiff E P := rfl
theorem v57_eq : val_main_v57 (F := Ideal) I E = meanDiff E I := rfl

/-- The difference of the two means at a node and a feature. -/
def refTerm (n : Fin 100000) (d : Fin 16) : EReal := meanDiff E P (ix2 n d) - meanDiff E I (ix2 n d)

/-- THE REFERENCE'S RESULT. -/
theorem ref_apply (i : S_.Idx) :
    val_main_v62 (F := Ideal) P I E i
      = Ideal.div (0 + ∑ n : Fin 100000, (0 + ∑ d : Fin 16, refTerm P I E n d * refTerm P I E n d))
          (Ideal.ofBits .f32 0x47C35000#32) := by
  rw [val_main_v62_apply, val_main_v61_apply, val_main_cst_16_apply, val_main_cst_15_apply]
  simp only [Ideal.hostDivf_def, Ideal.ofBits_def, Ideal.ofBits_zero_f32]
  rw [Cert.LibKeepdims.sum_idx1]
  refine congrArg (fun x => Ideal.div (0 + x) (Ideal.ofBits .f32 0x47C35000#32)) (Finset.sum_congr rfl fun n _ => ?_)
  rw [val_main_v60_apply, val_main_cst_14_apply]
  simp only [Ideal.ofBits_def, Ideal.ofBits_zero_f32]
  refine congrArg (0 + ·) (Finset.sum_congr rfl fun d _ => ?_)
  have hidx : idx_main_v60 (ix1 n) d = ix2 n d :=
    funext fun a => Fin.ext (by match a with | ⟨0, _⟩ => rfl | ⟨1, _⟩ => rfl)
  rw [hidx, val_main_v59_apply, val_main_v58_apply, v30_eq, v57_eq]
  rfl

end Cert.ReferenceIdeal.RefValue

end
-- ==== Proof.Bridge.lean ====
/-
  The two programs compute one number.

  The kernel program ends at `(Σ_n Σ_d (own - mean(P - I))²) / 100000`, the reference at
  `(0 + Σ_n (0 + Σ_d (mean(P at row - P at col) - mean(I at row - I at col))²)) / 100000`, with the same literal. At every
  node and feature the two squared quantities are equal when the inputs are real (the law at a node: the mean of a
  constant over a node's edges is the constant, and a mean of differences is the difference of the means), so the sums and
  the quotients are equal.
-/
import proofs.«162504_j69655779607181_2_alg».proof.Proof.KernelValue
import proofs.«162504_j69655779607181_2_alg».proof.Proof.KernelHost
import proofs.«162504_j69655779607181_2_alg».proof.Proof.RefValue

noncomputable section

open scoped BigOperators
open Idealize.ShloMosaic Idealize.ShloMosaic.TcCoe Idealize.SL.Sem
open Idealize.ShloMosaic.ValueIdx

namespace Cert.Bridge

open Cert.KernelIdeal.RegionValue Cert.KernelIdeal.HostValue

/-- The two operands of the kernel call are the two graph functions of the arguments. -/
theorem opA_eq (m : (ℓ : Loc Cert.KernelIdeal.nD Cert.KernelIdeal.τ Cert.KernelIdeal.sig) → Buf (Elt Ideal) ℓ)
    (c : Dev Cert.KernelIdeal.nD) :
    opA m c = Cert.Graph.own Cert.KernelIdeal.HostValue.side (argP m c) (argI m c) (argE m c) := by
  unfold opA
  exact V_own m c

theorem opB_eq (m : (ℓ : Loc Cert.KernelIdeal.nD Cert.KernelIdeal.τ Cert.KernelIdeal.sig) → Buf (Elt Ideal) ℓ)
    (c : Dev Cert.KernelIdeal.nD) :
    opB m c = Cert.Graph.meanRows Cert.KernelIdeal.HostValue.side (argE m c)
      (Cert.Graph.gatherRows Cert.KernelIdeal.HostValue.side (subf (argP m c) (argI m c))
        (Cert.Graph.column Cert.KernelIdeal.HostValue.side (Cert.Graph.normVec Cert.KernelIdeal.HostValue.side
          (Cert.Graph.colVec Cert.KernelIdeal.HostValue.side (argE m c))))) := by
  unfold opB
  exact V_mean m c

/-- THE RESULTS AGREE, for real-valued float arguments and memories that agree on the arguments. -/
theorem answer_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hP : ∀ j, ∃ r : ℝ, argP m c j = (r : EReal)) (hI : ∀ j, ∃ r : ℝ, argI m c j = (r : EReal))
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v62 m' c = answer m c := by
  rw [Cert.ReferenceIdeal.Read.val_main_v62_eq, h0, h1, h2]
  funext i
  refine (Cert.ReferenceIdeal.RefValue.ref_apply (argP m c) (argI m c) (argE m c) i).trans ?_
  show _ = Ideal.div (total m c) (Ideal.ofBits .f32 0x47C35000#32)
  rw [total_eq]
  simp only [zero_add]
  refine congrArg (fun x => Ideal.div x (Ideal.ofBits .f32 0x47C35000#32)) (Finset.sum_congr rfl fun n _ => ?_)
  unfold rowTerm
  rw [opA_eq, opB_eq]
  refine Finset.sum_congr rfl fun d _ => ?_
  have hn := Cert.Graph.node_eq Cert.KernelIdeal.HostValue.side (argP m c) (argI m c) hP hI (argE m c) n d
  exact (congrArg₂ (· * ·) hn hn).symm

end Cert.Bridge

end
-- ==== Proof.lean ====
/- The five claims about the kernel and its reference, proved.

   The kernel computes, for a graph given as an edge list, `(1/N) Σ_n Σ_d (own[n,d] - mean[n,d])²` where `own` is `P - I`
   on nodes that have an edge (zero elsewhere) and `mean[n]` is the mean of `(P - I)` at the nodes its edges select; the
   reference computes `(1/N) Σ_n Σ_d (meanP[n,d] - meanI[n,d])²` with `meanX[n]` the mean over the node's edges of
   `X[n] - X[selected]`. For real inputs the two are equal node by node (Proof/Spec.lean, Proof/Graph.lean); the kernel's
   tiled accumulation over ten blocks of rows is the whole sum (Proof/KernelAccum.lean, Proof/KernelValue.lean); the
   precondition makes the inputs real (Proof/Finite.lean). The three frames are the generated runs; the idealization
   rewrote nothing. -/
import proofs.«162504_j69655779607181_2_alg».proof.Defs
import proofs.«162504_j69655779607181_2_alg».proof.Proof.Gen.Kernel
import proofs.«162504_j69655779607181_2_alg».proof.Proof.Gen.Kernel.Skeleton
import proofs.«162504_j69655779607181_2_alg».proof.Proof.Gen.Kernel.Launch
import proofs.«162504_j69655779607181_2_alg».proof.Proof.Gen.Kernel.Points
import proofs.«162504_j69655779607181_2_alg».proof.Proof.Gen.Kernel.Frame
import proofs.«162504_j69655779607181_2_alg».proof.Proof.Gen.KernelIdeal
import proofs.«162504_j69655779607181_2_alg».proof.Proof.Gen.KernelIdeal.Skeleton
import proofs.«162504_j69655779607181_2_alg».proof.Proof.Gen.KernelIdeal.Launch
import proofs.«162504_j69655779607181_2_alg».proof.Proof.Gen.KernelIdeal.Points
import proofs.«162504_j69655779607181_2_alg».proof.Proof.Gen.KernelIdeal.Frame
import proofs.«162504_j69655779607181_2_alg».proof.Proof.Gen.ReferenceIdeal
import proofs.«162504_j69655779607181_2_alg».proof.Proof.Gen.Pre_finite_inputs
import proofs.«162504_j69655779607181_2_alg».proof.Proof.Gen.ReferenceIdeal.Run
import proofs.«162504_j69655779607181_2_alg».proof.Proof.Gen.ReferenceIdeal.Read
import proofs.«162504_j69655779607181_2_alg».proof.Proof.Finite
import proofs.«162504_j69655779607181_2_alg».proof.Proof.Bridge
import Idealize.ShloMosaic.Adequacy
import Idealize.ShloMosaic.Init

noncomputable section

namespace Cert.Proof

open Idealize.ShloMosaic Idealize.SL.Sem Cert.Kernel

/-- Run from memories that agree on the arguments, under the precondition, the two idealized programs end with equal
    results: the kernel program's run names its result, and the reference's result is that number. -/
theorem algebraic : Cert.algebraic_KernelIdeal_ReferenceIdeal := by
  intro m ρ m' ρ' hpre hagree
  refine ⟨fun c => Cert.KernelIdeal.RegionValue.answer m c, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hI⟩ := Cert.Finite.real_of_pre _ _ _ (hpre c)
  exact Cert.Bridge.answer_eq m m' c hP hI (hagree c).1 (hagree c).2.1 (hagree c).2.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
